-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x1 : Shape := ⟨2, ![524288, 1]⟩
abbrev S16384x3539 : Shape := ⟨2, ![16384, 3539]⟩
abbrev S16384x384 : Shape := ⟨2, ![16384, 384]⟩
abbrev S2x2097152 : Shape := ⟨2, ![2, 2097152]⟩
abbrev S524288 : Shape := ⟨1, ![524288]⟩
abbrev S1x64 : Shape := ⟨2, ![1, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S4051x256 : Shape := ⟨2, ![4051, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S524288x1 : S_.BroadcastsInDim S524288x1 (![] : Fin 0 → Fin S524288x1.rank)
  reducesTo_S524288x1_S_d0_1 : S524288x1.ReducesTo [0, 1] S_
  h_S_ : 0 < S_.numel
  bcast_S_S16384x3539 : S_.BroadcastsInDim S16384x3539 (![] : Fin 0 → Fin S16384x3539.rank)
  reducesTo_S16384x3539_S_d0_1 : S16384x3539.ReducesTo [0, 1] S_
  bcast_S_S16384x384 : S_.BroadcastsInDim S16384x384 (![] : Fin 0 → Fin S16384x384.rank)
  reducesTo_S16384x384_S_d0_1 : S16384x384.ReducesTo [0, 1] S_
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S4051x256 : S_.BroadcastsInDim S4051x256 (![] : Fin 0 → Fin S4051x256.rank)
  reducesTo_S4051x256_S_d0_1 : S4051x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S256x1 .f32) (main_arg14 : FVec F S1 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x1 .f32 := Host.absf main_arg13
  let main_cst_20 : FVec F S_ .f32 := constant S_ .f32 0x7F800000#32
  let main_v55 : FVec F S256x1 .f32 := broadcastInDim S256x1 ![] bcast_S_S256x1 main_cst_20
  let main_v56 : IVec S256x1 1 := cmpf .olt main_v54 main_v55
  let main_c_21 : IVec S_ 1 := constantI S_ 1 1#1
  let main_v57 : IVec S_ 1 := (fun x v => Host.reduce IntOp.andi x v reducesTo_S256x1_S_d0_1 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg9 : FVec F S64x128 .f32) (main_arg10 : FVec F S128 .f32) (main_arg11 : FVec F S4051x256 .f32) (main_arg12 : FVec F S256 .f32) (main_arg13 : FVec F S256x1 .f32) (main_arg14 : FVec F S1 .f32) (main_v33 : IVec S_ 1) : IVec S_ 1 :=
  let main_v34 : FVec F S64x128 .f32 := Host.absf main_arg9
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S4051x256 .f32 := Host.absf main_arg11
  let main_cst_16 : FVec F S_ .f32 := constant S_ .f32 0x7F800000#32
  let main_v45 : FVec F S4051x256 .f32 := broadcastInDim S4051x256 ![] bcast_S_S4051x256 main_cst_16
  let main_v46 : IVec S4051x256 1 := cmpf .olt main_v44 main_v45
  let main_c_17 : IVec S_ 1 := constantI S_ 1 1#1
  let main_v47 : IVec S_ 1 := (fun x v => Host.reduce IntOp.andi x v reducesTo_S4051x256_S_d0_1 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg13 main_arg14 main_v48 main_v49 main_v50

def fn_part1 {F : FTy → Type} [FloatOps F] (main_arg6 : FVec F S64 .f32) (main_arg7 : FVec F S64x64 .f32) (main_arg8 : FVec F S64 .f32) (main_arg9 : FVec F S64x128 .f32) (main_arg10 : FVec F S128 .f32) (main_arg11 : FVec F S4051x256 .f32) (main_arg12 : FVec F S256 .f32) (main_arg13 : FVec F S256x1 .f32) (main_arg14 : FVec F S1 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S524288x1 .f32) (main_arg1 : FVec F S16384x3539 .f32) (main_arg2 : FVec F S16384x384 .f32) (main_arg3 : IVec S2x2097152 32) (main_arg4 : IVec S524288 32) (main_arg5 : FVec F S1x64 .f32) (main_arg6 : FVec F S64 .f32) (main_arg7 : FVec F S64x64 .f32) (main_arg8 : FVec F S64 .f32) (main_arg9 : FVec F S64x128 .f32) (main_arg10 : FVec F S128 .f32) (main_arg11 : FVec F S4051x256 .f32) (main_arg12 : FVec F S256 .f32) (main_arg13 : FVec F S256x1 .f32) (main_arg14 : FVec F S1 .f32) : IVec S_ 1 :=
  let main_v0 : FVec F S524288x1 .f32 := Host.absf main_arg0
  let main_cst : FVec F S_ .f32 := constant S_ .f32 0x7F800000#32
  let main_v1 : FVec F S524288x1 .f32 := broadcastInDim S524288x1 ![] bcast_S_S524288x1 main_cst
  let main_v2 : IVec S524288x1 1 := cmpf .olt main_v0 main_v1
  let main_c : IVec S_ 1 := constantI S_ 1 1#1
  let main_v3 : IVec S_ 1 := (fun x v => Host.reduce IntOp.andi x v reducesTo_S524288x1_S_d0_1 h_S_) main_v2 main_c
  let main_v4 : FVec F S16384x3539 .f32 := Host.absf main_arg1
  let main_cst_0 : FVec F S_ .f32 := constant S_ .f32 0x7F800000#32
  let main_v5 : FVec F S16384x3539 .f32 := broadcastInDim S16384x3539 ![] bcast_S_S16384x3539 main_cst_0
  let main_v6 : IVec S16384x3539 1 := cmpf .olt main_v4 main_v5
  let main_c_1 : IVec S_ 1 := constantI S_ 1 1#1
  let main_v7 : IVec S_ 1 := (fun x v => Host.reduce IntOp.andi x v reducesTo_S16384x3539_S_d0_1 h_S_) main_v6 main_c_1
  let main_v8 : IVec S_ 1 := andi main_v3 main_v7
  let main_v9 : FVec F S16384x384 .f32 := Host.absf main_arg2
  let main_cst_2 : FVec F S_ .f32 := constant S_ .f32 0x7F800000#32
  let main_v10 : FVec F S16384x384 .f32 := broadcastInDim S16384x384 ![] bcast_S_S16384x384 main_cst_2
  let main_v11 : IVec S16384x384 1 := cmpf .olt main_v9 main_v10
  let main_c_3 : IVec S_ 1 := constantI S_ 1 1#1
  let main_v12 : IVec S_ 1 := (fun x v => Host.reduce IntOp.andi x v reducesTo_S16384x384_S_d0_1 h_S_) main_v11 main_c_3
  let main_v13 : IVec S_ 1 := andi main_v8 main_v12
  let main_v14 : FVec F S1x64 .f32 := Host.absf main_arg5
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg6 main_arg7 main_arg8 main_arg9 main_arg10 main_arg11 main_arg12 main_arg13 main_arg14 main_v13 main_v16
-- ==== Kernel.lean ====
abbrev S524288x1 : Shape := ⟨2, ![524288, 1]⟩
abbrev S16384x3539 : Shape := ⟨2, ![16384, 3539]⟩
abbrev S16384x384 : Shape := ⟨2, ![16384, 384]⟩
abbrev S2x2097152 : Shape := ⟨2, ![2, 2097152]⟩
abbrev S524288 : Shape := ⟨1, ![524288]⟩
abbrev S1x64 : Shape := ⟨2, ![1, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S4051x256 : Shape := ⟨2, ![4051, 256]⟩
abbrev S256 : Shape := ⟨1, ![256]⟩
abbrev S256x1 : Shape := ⟨2, ![256, 1]⟩
abbrev S1 : Shape := ⟨1, ![1]⟩
abbrev S1x2097152 : Shape := ⟨2, ![1, 2097152]⟩
abbrev S2097152 : Shape := ⟨1, ![2097152]⟩
abbrev S2621440 : Shape := ⟨1, ![2621440]⟩
abbrev S_ : Shape := ⟨0, ![]⟩
abbrev S2621440x1 : Shape := ⟨2, ![2621440, 1]⟩
abbrev S524288x64 : Shape := ⟨2, ![524288, 64]⟩
abbrev S8192x1 : Shape := ⟨2, ![8192, 1]⟩
abbrev S8192x64 : Shape := ⟨2, ![8192, 64]⟩
abbrev S2621440x64 : Shape := ⟨2, ![2621440, 64]⟩
abbrev S16384x64 : Shape := ⟨2, ![16384, 64]⟩
abbrev S16384 : Shape := ⟨1, ![16384]⟩
abbrev S16384x1 : Shape := ⟨2, ![16384, 1]⟩
abbrev S16384x128 : Shape := ⟨2, ![16384, 128]⟩
abbrev S8192x128 : Shape := ⟨2, ![8192, 128]⟩
abbrev S1x128 : Shape := ⟨2, ![1, 128]⟩
abbrev S128x256 : Shape := ⟨2, ![128, 256]⟩
abbrev S3539x256 : Shape := ⟨2, ![3539, 256]⟩
abbrev S384x256 : Shape := ⟨2, ![384, 256]⟩
abbrev S512x128 : Shape := ⟨2, ![512, 128]⟩
abbrev S512x3539 : Shape := ⟨2, ![512, 3539]⟩
abbrev S512x384 : Shape := ⟨2, ![512, 384]⟩
abbrev S512x1 : Shape := ⟨2, ![512, 1]⟩
abbrev S512x256 : Shape := ⟨2, ![512, 256]⟩
abbrev S1x256 : Shape := ⟨2, ![1, 256]⟩
abbrev S1x1 : Shape := ⟨2, ![1, 1]⟩

abbrev nBuf : Space → Nat
  | .hbm => 122
  | .vmem => 30
  | .smem => 0
  | _ => 0

abbrev bufTy : (tb : Table) → Fin (tcTables nBuf tb) → BufTy
  | .hbm, ⟨0, _⟩ => ⟨S524288x1, .f32⟩
  | .hbm, ⟨1, _⟩ => ⟨S16384x3539, .f32⟩
  | .hbm, ⟨2, _⟩ => ⟨S16384x384, .f32⟩
  | .hbm, ⟨3, _⟩ => ⟨S2x2097152, .i32⟩
  | .hbm, ⟨4, _⟩ => ⟨S524288, .i32⟩
  | .hbm, ⟨5, _⟩ => ⟨S1x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x128, .f32⟩
  | .hbm, ⟨10, _⟩ => ⟨S128, .f32⟩
  | .hbm, ⟨11, _⟩ => ⟨S4051x256, .f32⟩
  | .hbm, ⟨12, _⟩ => ⟨S256, .f32⟩
  | .hbm, ⟨13, _⟩ => ⟨S256x1, .f32⟩
  | .hbm, ⟨14, _⟩ => ⟨S1, .f32⟩
  | .hbm, ⟨15, _⟩ => ⟨S524288, .i32⟩
  | .hbm, ⟨16, _⟩ => ⟨S1x2097152, .i32⟩
  | .hbm, ⟨17, _⟩ => ⟨S2097152, .i32⟩
  | .hbm, ⟨18, _⟩ => ⟨S2621440, .i32⟩
  | .hbm, ⟨19, _⟩ => ⟨S1x2097152, .i32⟩
  | .hbm, ⟨20, _⟩ => ⟨S2097152, .i32⟩
  | .hbm, ⟨21, _⟩ => ⟨S2621440, .i32⟩
  | .hbm, ⟨22, _⟩ => ⟨S_, .f32⟩
  | .hbm, ⟨23, _⟩ => ⟨S2621440, .f32⟩
  | .hbm, ⟨24, _⟩ => ⟨S_, .f32⟩
  | .hbm, ⟨25, _⟩ => ⟨S524288, .f32⟩
  | .hbm, ⟨26, _⟩ => ⟨S2621440x1, .i32⟩
  | .hbm, ⟨27, _⟩ => ⟨S524288, .f32⟩
  | .hbm, ⟨28, _⟩ => ⟨S_, .f32⟩
  | .hbm, ⟨29, _⟩ => ⟨S524288, .f32⟩
  | .hbm, ⟨30, _⟩ => ⟨S524288, .i1⟩
  | .hbm, ⟨31, _⟩ => ⟨S524288, .f32⟩
  | .hbm, ⟨32, _⟩ => ⟨S_, .f32⟩
  | .hbm, ⟨33, _⟩ => ⟨S_, .f32⟩
  | .hbm, ⟨34, _⟩ => ⟨S524288, .f32⟩
  | .hbm, ⟨35, _⟩ => ⟨S524288, .f32⟩
  | .hbm, ⟨36, _⟩ => ⟨S_, .i32⟩
  | .hbm, ⟨37, _⟩ => ⟨S2621440, .i32⟩
  | .hbm, ⟨38, _⟩ => ⟨S2621440, .i1⟩
  | .hbm, ⟨39, _⟩ => ⟨S_, .i32⟩
  | .hbm, ⟨40, _⟩ => ⟨S2621440, .i32⟩
  | .hbm, ⟨41, _⟩ => ⟨S2621440, .i32⟩
  | .hbm, ⟨42, _⟩ => ⟨S2621440, .i32⟩
  | .hbm, ⟨43, _⟩ => ⟨S2621440x1, .i32⟩
  | .hbm, ⟨44, _⟩ => ⟨S2621440, .f32⟩
  | .hbm, ⟨45, _⟩ => ⟨S_, .i32⟩
  | .hbm, ⟨46, _⟩ => ⟨S2621440, .i32⟩
  | .hbm, ⟨47, _⟩ => ⟨S2621440, .i1⟩
  | .hbm, ⟨48, _⟩ => ⟨S_, .i32⟩
  | .hbm, ⟨49, _⟩ => ⟨S2621440, .i32⟩
  | .hbm, ⟨50, _⟩ => ⟨S2621440, .i32⟩
  | .hbm, ⟨51, _⟩ => ⟨S2621440, .i32⟩
  | .hbm, ⟨52, _⟩ => ⟨S2621440x1, .i32⟩
  | .hbm, ⟨53, _⟩ => ⟨S2621440, .f32⟩
  | .hbm, ⟨54, _⟩ => ⟨S2621440, .f32⟩
  | .hbm, ⟨55, _⟩ => ⟨S524288x64, .f32⟩
  | .hbm, ⟨56, _⟩ => ⟨S2621440x1, .f32⟩
  | .hbm, ⟨57, _⟩ => ⟨S_, .i32⟩
  | .hbm, ⟨58, _⟩ => ⟨S2621440, .i32⟩
  | .hbm, ⟨59, _⟩ => ⟨S2621440, .i1⟩
  | .hbm, ⟨60, _⟩ => ⟨S_, .i32⟩
  | .hbm, ⟨61, _⟩ => ⟨S2621440, .i32⟩
  | .hbm, ⟨62, _⟩ => ⟨S2621440, .i32⟩
  | .hbm, ⟨63, _⟩ => ⟨S2621440, .i32⟩
  | .hbm, ⟨64, _⟩ => ⟨S2621440x1, .i32⟩
  | .hbm, ⟨65, _⟩ => ⟨S2621440x64, .f32⟩
  | .hbm, ⟨66, _⟩ => ⟨S2621440x64, .f32⟩
  | .hbm, ⟨67, _⟩ => ⟨S2621440x64, .f32⟩
  | .hbm, ⟨68, _⟩ => ⟨S_, .f32⟩
  | .hbm, ⟨69, _⟩ => ⟨S524288x64, .f32⟩
  | .hbm, ⟨70, _⟩ => ⟨S2621440x1, .i32⟩
  | .hbm, ⟨71, _⟩ => ⟨S524288x64, .f32⟩
  | .hbm, ⟨72, _⟩ => ⟨S1x64, .f32⟩
  | .hbm, ⟨73, _⟩ => ⟨S524288x64, .f32⟩
  | .hbm, ⟨74, _⟩ => ⟨S524288x64, .f32⟩
  | .hbm, ⟨75, _⟩ => ⟨S_, .f32⟩
  | .hbm, ⟨76, _⟩ => ⟨S524288x64, .f32⟩
  | .hbm, ⟨77, _⟩ => ⟨S524288x64, .f32⟩
  | .hbm, ⟨78, _⟩ => ⟨S524288x64, .f32⟩
  | .hbm, ⟨79, _⟩ => ⟨S2621440x1, .f32⟩
  | .hbm, ⟨80, _⟩ => ⟨S_, .i32⟩
  | .hbm, ⟨81, _⟩ => ⟨S2621440, .i32⟩
  | .hbm, ⟨82, _⟩ => ⟨S2621440, .i1⟩
  | .hbm, ⟨83, _⟩ => ⟨S_, .i32⟩
  | .hbm, ⟨84, _⟩ => ⟨S2621440, .i32⟩
  | .hbm, ⟨85, _⟩ => ⟨S2621440, .i32⟩
  | .hbm, ⟨86, _⟩ => ⟨S2621440, .i32⟩
  | .hbm, ⟨87, _⟩ => ⟨S2621440x1, .i32⟩
  | .hbm, ⟨88, _⟩ => ⟨S2621440x64, .f32⟩
  | .hbm, ⟨89, _⟩ => ⟨S2621440x64, .f32⟩
  | .hbm, ⟨90, _⟩ => ⟨S2621440x64, .f32⟩
  | .hbm, ⟨91, _⟩ => ⟨S_, .f32⟩
  | .hbm, ⟨92, _⟩ => ⟨S524288x64, .f32⟩
  | .hbm, ⟨93, _⟩ => ⟨S2621440x1, .i32⟩
  | .hbm, ⟨94, _⟩ => ⟨S524288x64, .f32⟩
  | .hbm, ⟨95, _⟩ => ⟨S1x64, .f32⟩
  | .hbm, ⟨96, _⟩ => ⟨S524288x64, .f32⟩
  | .hbm, ⟨97, _⟩ => ⟨S524288x64, .f32⟩
  | .hbm, ⟨98, _⟩ => ⟨S_, .f32⟩
  | .hbm, ⟨99, _⟩ => ⟨S524288x64, .f32⟩
  | .hbm, ⟨100, _⟩ => ⟨S524288x64, .f32⟩
  | .hbm, ⟨101, _⟩ => ⟨S_, .f32⟩
  | .hbm, ⟨102, _⟩ => ⟨S16384x64, .f32⟩
  | .hbm, ⟨103, _⟩ => ⟨S524288x1, .i32⟩
  | .hbm, ⟨104, _⟩ => ⟨S16384x64, .f32⟩
  | .hbm, ⟨105, _⟩ => ⟨S_, .f32⟩
  | .hbm, ⟨106, _⟩ => ⟨S524288, .f32⟩
  | .hbm, ⟨107, _⟩ => ⟨S_, .f32⟩
  | .hbm, ⟨108, _⟩ => ⟨S16384, .f32⟩
  | .hbm, ⟨109, _⟩ => ⟨S524288x1, .i32⟩
  | .hbm, ⟨110, _⟩ => ⟨S16384, .f32⟩
  | .hbm, ⟨111, _⟩ => ⟨S_, .f32⟩
  | .hbm, ⟨112, _⟩ => ⟨S16384, .f32⟩
  | .hbm, ⟨113, _⟩ => ⟨S16384, .f32⟩
  | .hbm, ⟨114, _⟩ => ⟨S16384x1, .f32⟩
  | .hbm, ⟨115, _⟩ => ⟨S16384x64, .f32⟩
  | .hbm, ⟨116, _⟩ => ⟨S16384x64, .f32⟩
  | .hbm, ⟨117, _⟩ => ⟨S16384x128, .f32⟩
  | .hbm, ⟨118, _⟩ => ⟨S128x256, .f32⟩
  | .hbm, ⟨119, _⟩ => ⟨S3539x256, .f32⟩
  | .hbm, ⟨120, _⟩ => ⟨S384x256, .f32⟩
  | .hbm, ⟨121, _⟩ => ⟨S16384x1, .f32⟩
  | .local _ .vmem, ⟨0, _⟩ => ⟨S8192x1, .f32⟩
  | .local _ .vmem, ⟨1, _⟩ => ⟨S8192x1, .f32⟩
  | .local _ .vmem, ⟨2, _⟩ => ⟨S1x64, .f32⟩
  | .local _ .vmem, ⟨3, _⟩ => ⟨S8192x64, .f32⟩
  | .local _ .vmem, ⟨4, _⟩ => ⟨S8192x64, .f32⟩
  | .local _ .vmem, ⟨5, _⟩ => ⟨S8192x64, .f32⟩
  | .local _ .vmem, ⟨6, _⟩ => ⟨S8192x64, .f32⟩
  | .local _ .vmem, ⟨7, _⟩ => ⟨S64x64, .f32⟩
  | .local _ .vmem, ⟨8, _⟩ => ⟨S8192x64, .f32⟩
  | .local _ .vmem, ⟨9, _⟩ => ⟨S8192x64, .f32⟩
  | .local _ .vmem, ⟨10, _⟩ => ⟨S8192x64, .f32⟩
  | .local _ .vmem, ⟨11, _⟩ => ⟨S8192x64, .f32⟩
  | .local _ .vmem, ⟨12, _⟩ => ⟨S64x128, .f32⟩
  | .local _ .vmem, ⟨13, _⟩ => ⟨S128, .f32⟩
  | .local _ .vmem, ⟨14, _⟩ => ⟨S8192x128, .f32⟩
  | .local _ .vmem, ⟨15, _⟩ => ⟨S8192x128, .f32⟩
  | .local _ .vmem, ⟨16, _⟩ => ⟨S512x128, .f32⟩
  | .local _ .vmem, ⟨17, _⟩ => ⟨S512x128, .f32⟩
  | .local _ .vmem, ⟨18, _⟩ => ⟨S512x3539, .f32⟩
  | .local _ .vmem, ⟨19, _⟩ => ⟨S512x3539, .f32⟩
  | .local _ .vmem, ⟨20, _⟩ => ⟨S512x384, .f32⟩
  | .local _ .vmem, ⟨21, _⟩ => ⟨S512x384, .f32⟩
  | .local _ .vmem, ⟨22, _⟩ => ⟨S128x256, .f32⟩
  | .local _ .vmem, ⟨23, _⟩ => ⟨S3539x256, .f32⟩
  | .local _ .vmem, ⟨24, _⟩ => ⟨S384x256, .f32⟩
  | .local _ .vmem, ⟨25, _⟩ => ⟨S256, .f32⟩
  | .local _ .vmem, ⟨26, _⟩ => ⟨S256x1, .f32⟩
  | .local _ .vmem, ⟨27, _⟩ => ⟨S1, .f32⟩
  | .local _ .vmem, ⟨28, _⟩ => ⟨S512x1, .f32⟩
  | .local _ .vmem, ⟨29, _⟩ => ⟨S512x1, .f32⟩
  | _, _ => ⟨S524288x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v14 : Ref sig .tc := ⟨.hbm, 35, rfl⟩
abbrev main_c : Ref sig .tc := ⟨.hbm, 36, rfl⟩
abbrev main_v15 : Ref sig .tc := ⟨.hbm, 37, rfl⟩
abbrev main_v16 : Ref sig .tc := ⟨.hbm, 38, rfl⟩
abbrev main_c_3 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_4 : Ref sig .tc := ⟨.hbm, 45, rfl⟩
abbrev main_v22 : Ref sig .tc := ⟨.hbm, 46, rfl⟩
abbrev main_v23 : Ref sig .tc := ⟨.hbm, 47, rfl⟩
abbrev main_c_5 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_6 : Ref sig .tc := ⟨.hbm, 57, rfl⟩
abbrev main_v32 : Ref sig .tc := ⟨.hbm, 58, rfl⟩
abbrev main_v33 : Ref sig .tc := ⟨.hbm, 59, rfl⟩
abbrev main_c_7 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_8 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_call1_cst : Ref sig .tc := ⟨.hbm, 75, rfl⟩
abbrev main_call1_v0 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_c_9 : Ref sig .tc := ⟨.hbm, 80, rfl⟩
abbrev main_v50 : Ref sig .tc := ⟨.hbm, 81, rfl⟩
abbrev main_v51 : Ref sig .tc := ⟨.hbm, 82, rfl⟩
abbrev main_c_10 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_11 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_call2_cst : Ref sig .tc := ⟨.hbm, 98, rfl⟩
abbrev main_call2_v0 : Ref sig .tc := ⟨.hbm, 99, rfl⟩
abbrev main_v65 : Ref sig .tc := ⟨.hbm, 100, rfl⟩
abbrev main_cst_12 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_cst_13 : Ref sig .tc := ⟨.hbm, 105, rfl⟩
abbrev main_v69 : Ref sig .tc := ⟨.hbm, 106, rfl⟩
abbrev main_cst_14 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_cst_15 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg6_0 : Ref sig .tc := ⟨.vmem, 25, rfl⟩
abbrev cc3_stg7_0 : Ref sig .tc := ⟨.vmem, 26, rfl⟩
abbrev cc3_stg8_0 : Ref sig .tc := ⟨.vmem, 27, rfl⟩
abbrev cc3_stg9_0 : Ref sig .tc := ⟨.vmem, 28, rfl⟩
abbrev cc3_stg9_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc3_sem3_0 : DmaSem sig := 22
abbrev cc3_sem4_0 : DmaSem sig := 23
abbrev cc3_sem5_0 : DmaSem sig := 24
abbrev cc3_sem6_0 : DmaSem sig := 25
abbrev cc3_sem7_0 : DmaSem sig := 26
abbrev cc3_sem8_0 : DmaSem sig := 27
abbrev cc3_sem9_0 : DmaSem sig := 28
abbrev cc3_sem9_1 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8192x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S8192x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x3539 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S512x384 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S3539x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S384x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S256x1 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S512x1 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

class Facts₀ : Prop where
  slices_S2x2097152_S1x2097152_0_0 : S2x2097152.Slices ![0, 0] S1x2097152
  shapeCasts_S1x2097152_S2097152 : S1x2097152.ShapeCasts S2097152
  concatenates_S2097152_S524288_S2621440_d0 : Shape.Concatenates [S2097152, S524288] S2621440 0
  slices_S2x2097152_S1x2097152_1_0 : S2x2097152.Slices ![1, 0] S1x2097152
  bcast_S_S2621440 : S_.BroadcastsInDim S2621440 (![] : Fin 0 → Fin S2621440.rank)
  bcast_S_S524288 : S_.BroadcastsInDim S524288 (![] : Fin 0 → Fin S524288.rank)
  bcast_S2621440_S2621440x1_0 : S2621440.BroadcastsInDim S2621440x1 (![0] : Fin 1 → Fin S2621440x1.rank)
  inb_S8192x1_S8192x1_0_0 : ∀ a, (![0, 0] : Fin 2 → Nat) a + S8192x1.size a ≤ S8192x1.size a
  h_S8192x1 : 0 < S8192x1.numel
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  inb_S8192x64_S8192x64_0_0 : ∀ a, (![0, 0] : Fin 2 → Nat) a + S8192x64.size a ≤ S8192x64.size a
  h_S8192x64 : 0 < S8192x64.numel
  bcast_S2621440x1_S2621440x64_0_1 : S2621440x1.BroadcastsInDim S2621440x64 (![0, 1] : Fin 2 → Fin S2621440x64.rank)
  bcast_S_S524288x64 : S_.BroadcastsInDim S524288x64 (![] : Fin 0 → Fin S524288x64.rank)
  bcast_S64_S1x64_1 : S64.BroadcastsInDim S1x64 (![1] : Fin 1 → Fin S1x64.rank)
  bcast_S1x64_S524288x64_0_1 : S1x64.BroadcastsInDim S524288x64 (![0, 1] : Fin 2 → Fin S524288x64.rank)
  shapeCasts_S8192x64_S8192x64 : S8192x64.ShapeCasts S8192x64
  inb_S64x64_S64x64_0_0 : ∀ a, (![0, 0] : Fin 2 → Nat) a + S64x64.size a ≤ S64x64.size a
  h_S64x64 : 0 < S64x64.numel
  bcast_S_S16384x64 : S_.BroadcastsInDim S16384x64 (![] : Fin 0 → Fin S16384x64.rank)
  bcast_S524288_S524288x1_0 : S524288.BroadcastsInDim S524288x1 (![0] : Fin 1 → Fin S524288x1.rank)
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x64_0_1 : S16384x1.BroadcastsInDim S16384x64 (![0, 1] : Fin 2 → Fin S16384x64.rank)
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S8192x128 : S1x128.Broadcasts S8192x128
  inb_S8192x128_S8192x128_0_0 : ∀ a, (![0, 0] : Fin 2 → Nat) a + S8192x128.size a ≤ S8192x128.size a
  h_S8192x128 : 0 < S8192x128.numel
  slices_S4051x256_S128x256_0_0 : S4051x256.Slices ![0, 0] S128x256
  slices_S4051x256_S3539x256_128_0 : S4051x256.Slices ![128, 0] S3539x256
  slices_S4051x256_S384x256_3667_0 : S4051x256.Slices ![3667, 0] S384x256
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x3539_S512x3539_0_0 : ∀ a, (![0, 0] : Fin 2 → Nat) a + S512x3539.size a ≤ S512x3539.size a
  h_S512x3539 : 0 < S512x3539.numel
  inb_S512x384_S512x384_0_0 : ∀ a, (![0, 0] : Fin 2 → Nat) a + S512x384.size a ≤ S512x384.size a
  h_S512x384 : 0 < S512x384.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S3539x256_S3539x256_0_0 : ∀ a, (![0, 0] : Fin 2 → Nat) a + S3539x256.size a ≤ S3539x256.size a
  h_S3539x256 : 0 < S3539x256.numel
  shapeCasts_S3539x256_S3539x256 : S3539x256.ShapeCasts S3539x256
  inb_S384x256_S384x256_0_0 : ∀ a, (![0, 0] : Fin 2 → Nat) a + S384x256.size a ≤ S384x256.size a
  h_S384x256 : 0 < S384x256.numel
  shapeCasts_S384x256_S384x256 : S384x256.ShapeCasts S384x256
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  inb_S256x1_S256x1_0_0 : ∀ a, (![0, 0] : Fin 2 → Nat) a + S256x1.size a ≤ S256x1.size a
  h_S256x1 : 0 < S256x1.numel
  inb_S1_S1_0 : ∀ a, (![0] : Fin 1 → Nat) a + S1.size a ≤ S1.size a
  h_S1 : 0 < S1.numel
  shapeCasts_S1_S1x1 : S1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  scatter_S524288_S2621440x1_S2621440_n_0_0_1_wf : ScatterDims.WF S524288 S2621440x1 S2621440 [] [0] [0] 1
  gather_S524288_S2621440x1_S2621440_n_0_n_n_0_1_1_wf : GatherDims.WF S524288 S2621440x1 S2621440 [] [0] [] [0] [] 1 ![1]
  dot_S8192x1_S1x64_S8192x64_1_0_0_1_n_n_wf : DotDims.WF S8192x1 S1x64 S8192x64 [1] [0] [0] [1] [] []
  gather_S524288x64_S2621440x1_S2621440x64_1_0_n_n_0_1_164_wf : GatherDims.WF S524288x64 S2621440x1 S2621440x64 [1] [0] [] [0] [] 1 ![1, 64]
  scatter_S524288x64_S2621440x1_S2621440x64_1_0_0_1_wf : ScatterDims.WF S524288x64 S2621440x1 S2621440x64 [1] [0] [0] 1
  dot_S8192x64_S64x64_S8192x64_1_0_0_1_n_n_wf : DotDims.WF S8192x64 S64x64 S8192x64 [1] [0] [0] [1] [] []
  scatter_S16384x64_S524288x1_S524288x64_1_0_0_1_wf : ScatterDims.WF S16384x64 S524288x1 S524288x64 [1] [0] [0] 1
  scatter_S16384_S524288x1_S524288_n_0_0_1_wf : ScatterDims.WF S16384 S524288x1 S524288 [] [0] [0] 1
  dot_S8192x64_S64x128_S8192x128_1_0_0_1_n_n_wf : DotDims.WF S8192x64 S64x128 S8192x128 [1] [0] [0] [1] [] []
  dot_S512x128_S128x256_S512x256_1_0_0_1_n_n_wf : DotDims.WF S512x128 S128x256 S512x256 [1] [0] [0] [1] [] []
  dot_S512x3539_S3539x256_S512x256_1_0_0_1_n_n_wf : DotDims.WF S512x3539 S3539x256 S512x256 [1] [0] [0] [1] [] []
  dot_S512x384_S384x256_S512x256_1_0_0_1_n_n_wf : DotDims.WF S512x384 S384x256 S512x256 [1] [0] [0] [1] [] []
  dot_S512x256_S256x1_S512x1_1_0_0_1_n_n_wf : DotDims.WF S512x256 S256x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x1.size a ≤ S524288x1.size a
  hwx0_0 : ∀ i : grid0.Coords, EltTy.bits .f32 = 32 ∨ (Rect.block (s := S524288x1) S8192x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x64.size a ≤ S524288x64.size a
  hwx0_2 : ∀ i : grid0.Coords, EltTy.bits .f32 = 32 ∨ (Rect.block (s := S524288x64) S8192x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x64.size a ≤ S524288x64.size a
  hwx1_0 : ∀ i : grid1.Coords, EltTy.bits .f32 = 32 ∨ (Rect.block (s := S524288x64) S8192x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x64.size a ≤ S524288x64.size a
  hwx1_2 : ∀ i : grid1.Coords, EltTy.bits .f32 = 32 ∨ (Rect.block (s := S524288x64) S8192x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x64.size a ≤ S16384x64.size a
  hwx2_0 : ∀ i : grid2.Coords, EltTy.bits .f32 = 32 ∨ (Rect.block (s := S16384x64) S8192x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x128.size a ≤ S64x128.size a
  hwx2_1 : ∀ i : grid2.Coords, EltTy.bits .f32 = 32 ∨ (Rect.block (s := S64x128) S64x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8192x128.size a ≤ S16384x128.size a
  hwx2_3 : ∀ i : grid2.Coords, EltTy.bits .f32 = 32 ∨ (Rect.block (s := S16384x128) S8192x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x128.size a ≤ S16384x128.size a
  hwx3_0 : ∀ i : grid3.Coords, EltTy.bits .f32 = 32 ∨ (Rect.block (s := S16384x128) S512x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x3539.size a ≤ S16384x3539.size a
  hwx3_1 : ∀ i : grid3.Coords, EltTy.bits .f32 = 32 ∨ (Rect.block (s := S16384x3539) S512x3539.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x384.size a ≤ S16384x384.size a
  hwx3_2 : ∀ i : grid3.Coords, EltTy.bits .f32 = 32 ∨ (Rect.block (s := S16384x384) S512x384.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x256.size a ≤ S128x256.size a
  hwx3_3 : ∀ i : grid3.Coords, EltTy.bits .f32 = 32 ∨ (Rect.block (s := S128x256) S128x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S3539x256.size a ≤ S3539x256.size a
  hwx3_4 : ∀ i : grid3.Coords, EltTy.bits .f32 = 32 ∨ (Rect.block (s := S3539x256) S3539x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S384x256.size a ≤ S384x256.size a
  hwx3_5 : ∀ i : grid3.Coords, EltTy.bits .f32 = 32 ∨ (Rect.block (s := S384x256) S384x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S256.size a ≤ S256.size a
  hwx3_6 : ∀ i : grid3.Coords, EltTy.bits .f32 = 32 ∨ (Rect.block (s := S256) S256.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S256x1.size a ≤ S256x1.size a
  hwx3_7 : ∀ i : grid3.Coords, EltTy.bits .f32 = 32 ∨ (Rect.block (s := S256x1) S256x1.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1.size a ≤ S1.size a
  hwx3_8 : ∀ i : grid3.Coords, EltTy.bits .f32 = 32 ∨ (Rect.block (s := S1) S1.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S512x1.size a ≤ S16384x1.size a
  hwx3_9 : ∀ i : grid3.Coords, EltTy.bits .f32 = 32 ∨ (Rect.block (s := S16384x1) S512x1.size (cc3_transform_9 i) (hinb3_9 i)).WholeWords (EltTy.packing .f32)

variable [Facts₀]

def scatter_S524288_S2621440x1_S2621440_n_0_0_1 : ScatterDims S524288 S2621440x1 S2621440 where
  updateWindowDims := []
  insertedWindowDims := [0]
  scatterDimsToOperandDims := [0]
  indexVectorDim := 1
  wf := scatter_S524288_S2621440x1_S2621440_n_0_0_1_wf
def gather_S524288_S2621440x1_S2621440_n_0_n_n_0_1_1 : GatherDims S524288 S2621440x1 S2621440 where
  offsetDims := []
  collapsedSliceDims := [0]
  operandBatchingDims := []
  startIndicesBatchingDims := []
  startIndexMap := [0]
  indexVectorDim := 1
  sliceSizes := ![1]
  wf := gather_S524288_S2621440x1_S2621440_n_0_n_n_0_1_1_wf
def dot_S8192x1_S1x64_S8192x64_1_0_0_1_n_n : DotDims S8192x1 S1x64 S8192x64 where
  lhsContracting := [1]
  rhsContracting := [0]
  lhsNonContracting := [0]
  rhsNonContracting := [1]
  lhsBatch := []
  rhsBatch := []
  wf := dot_S8192x1_S1x64_S8192x64_1_0_0_1_n_n_wf
def gather_S524288x64_S2621440x1_S2621440x64_1_0_n_n_0_1_164 : GatherDims S524288x64 S2621440x1 S2621440x64 where
  offsetDims := [1]
  collapsedSliceDims := [0]
  operandBatchingDims := []
  startIndicesBatchingDims := []
  startIndexMap := [0]
  indexVectorDim := 1
  sliceSizes := ![1, 64]
  wf := gather_S524288x64_S2621440x1_S2621440x64_1_0_n_n_0_1_164_wf
def scatter_S524288x64_S2621440x1_S2621440x64_1_0_0_1 : ScatterDims S524288x64 S2621440x1 S2621440x64 where
  updateWindowDims := [1]
  insertedWindowDims := [0]
  scatterDimsToOperandDims := [0]
  indexVectorDim := 1
  wf := scatter_S524288x64_S2621440x1_S2621440x64_1_0_0_1_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def scatter_S16384x64_S524288x1_S524288x64_1_0_0_1 : ScatterDims S16384x64 S524288x1 S524288x64 where
  updateWindowDims := [1]
  insertedWindowDims := [0]
  scatterDimsToOperandDims := [0]
  indexVectorDim := 1
  wf := scatter_S16384x64_S524288x1_S524288x64_1_0_0_1_wf
def scatter_S16384_S524288x1_S524288_n_0_0_1 : ScatterDims S16384 S524288x1 S524288 where
  updateWindowDims := []
  insertedWindowDims := [0]
  scatterDimsToOperandDims := [0]
  indexVectorDim := 1
  wf := scatter_S16384_S524288x1_S524288_n_0_0_1_wf
def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x3539_S3539x256_S512x256_1_0_0_1_n_n : DotDims S512x3539 S3539x256 S512x256 where
  lhsContracting := [1]
  rhsContracting := [0]
  lhsNonContracting := [0]
  rhsNonContracting := [1]
  lhsBatch := []
  rhsBatch := []
  wf := dot_S512x3539_S3539x256_S512x256_1_0_0_1_n_n_wf
def dot_S512x384_S384x256_S512x256_1_0_0_1_n_n : DotDims S512x384 S384x256 S512x256 where
  lhsContracting := [1]
  rhsContracting := [0]
  lhsNonContracting := [0]
  rhsNonContracting := [1]
  lhsBatch := []
  rhsBatch := []
  wf := dot_S512x384_S384x256_S512x256_1_0_0_1_n_n_wf
def dot_S512x256_S256x1_S512x1_1_0_0_1_n_n : DotDims S512x256 S256x1 S512x1 where
  lhsContracting := [1]
  rhsContracting := [0]
  lhsNonContracting := [0]
  rhsNonContracting := [1]
  lhsBatch := []
  rhsBatch := []
  wf := dot_S512x256_S256x1_S512x1_1_0_0_1_n_n_wf

abbrev win0_0 : Pipeline.Window sig grid0 :=
  Pipeline.Window.ofSpec (Memref.whole main_arg0) S8192x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S8192x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S8192x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S8192x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v77) S8192x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S64x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v78) S8192x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v78) S512x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg1) S512x3539.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg2) S512x384.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v79) S128x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v80) S3539x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v81) S384x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg12) S256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg13) S256x1.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg14) S1.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v82) S512x1.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

class Facts : Prop extends Facts₀ where

variable [Facts]
-- ==== ReferenceIdeal.lean ====
abbrev S524288x1 : Shape := ⟨2, ![524288, 1]⟩
abbrev S16384x3539 : Shape := ⟨2, ![16384, 3539]⟩
abbrev S16384x384 : Shape := ⟨2, ![16384, 384]⟩
abbrev S2x2097152 : Shape := ⟨2, ![2, 2097152]⟩
abbrev S524288 : Shape := ⟨1, ![524288]⟩
abbrev S1x64 : Shape := ⟨2, ![1, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S4051x256 : Shape := ⟨2, ![4051, 256]⟩
abbrev S256 : Shape := ⟨1, ![256]⟩
abbrev S256x1 : Shape := ⟨2, ![256, 1]⟩
abbrev S1 : Shape := ⟨1, ![1]⟩
abbrev S1x2097152 : Shape := ⟨2, ![1, 2097152]⟩
abbrev S2097152 : Shape := ⟨1, ![2097152]⟩
abbrev S2621440 : Shape := ⟨1, ![2621440]⟩
abbrev S_ : Shape := ⟨0, ![]⟩
abbrev S2621440x1 : Shape := ⟨2, ![2621440, 1]⟩
abbrev S524288x64 : Shape := ⟨2, ![524288, 64]⟩
abbrev S2621440x64 : Shape := ⟨2, ![2621440, 64]⟩
abbrev S16384x64 : Shape := ⟨2, ![16384, 64]⟩
abbrev S16384 : Shape := ⟨1, ![16384]⟩
abbrev S16384x1 : Shape := ⟨2, ![16384, 1]⟩
abbrev S16384x128 : Shape := ⟨2, ![16384, 128]⟩
abbrev S1x128 : Shape := ⟨2, ![1, 128]⟩
abbrev S16384x4051 : Shape := ⟨2, ![16384, 4051]⟩
abbrev S16384x256 : Shape := ⟨2, ![16384, 256]⟩
abbrev S1x256 : Shape := ⟨2, ![1, 256]⟩
abbrev S1x1 : Shape := ⟨2, ![1, 1]⟩

abbrev nBuf : Space → Nat
  | .hbm => 141
  | .vmem => 0
  | .smem => 0
  | _ => 0

abbrev hbmTy0_0 (i : Nat) : BufTy := match i % 128 with
  | 0 => ⟨S524288x1, .f32⟩
  | 1 => ⟨S16384x3539, .f32⟩
  | 2 => ⟨S16384x384, .f32⟩
  | 3 => ⟨S2x2097152, .i32⟩
  | 4 => ⟨S524288, .i32⟩
  | 5 => ⟨S1x64, .f32⟩
  | 6 => ⟨S64, .f32⟩
  | 7 => ⟨S64x64, .f32⟩
  | 8 => ⟨S64, .f32⟩
  | 9 => ⟨S64x128, .f32⟩
  | 10 => ⟨S128, .f32⟩
  | 11 => ⟨S4051x256, .f32⟩
  | 12 => ⟨S256, .f32⟩
  | 13 => ⟨S256x1, .f32⟩
  | 14 => ⟨S1, .f32⟩
  | 15 => ⟨S524288, .i32⟩
  | 16 => ⟨S1x2097152, .i32⟩
  | 17 => ⟨S2097152, .i32⟩
  | 18 => ⟨S2621440, .i32⟩
  | 19 => ⟨S1x2097152, .i32⟩
  | 20 => ⟨S2097152, .i32⟩
  | 21 => ⟨S2621440, .i32⟩
  | 22 => ⟨S_, .f32⟩
  | 23 => ⟨S2621440, .f32⟩
  | 24 => ⟨S_, .f32⟩
  | 25 => ⟨S524288, .f32⟩
  | 26 => ⟨S2621440x1, .i32⟩
  | 27 => ⟨S524288, .f32⟩
  | 28 => ⟨S_, .f32⟩
  | 29 => ⟨S524288, .f32⟩
  | 30 => ⟨S524288, .i1⟩
  | 31 => ⟨S524288, .f32⟩
  | 32 => ⟨S_, .f32⟩
  | 33 => ⟨S_, .f32⟩
  | 34 => ⟨S524288, .f32⟩
  | 35 => ⟨S524288, .f32⟩
  | 36 => ⟨S_, .i32⟩
  | 37 => ⟨S2621440, .i32⟩
  | 38 => ⟨S2621440, .i1⟩
  | 39 => ⟨S_, .i32⟩
  | 40 => ⟨S2621440, .i32⟩
  | 41 => ⟨S2621440, .i32⟩
  | 42 => ⟨S2621440, .i32⟩
  | 43 => ⟨S2621440x1, .i32⟩
  | 44 => ⟨S2621440, .f32⟩
  | 45 => ⟨S_, .i32⟩
  | 46 => ⟨S2621440, .i32⟩
  | 47 => ⟨S2621440, .i1⟩
  | 48 => ⟨S_, .i32⟩
  | 49 => ⟨S2621440, .i32⟩
  | 50 => ⟨S2621440, .i32⟩
  | 51 => ⟨S2621440, .i32⟩
  | 52 => ⟨S2621440x1, .i32⟩
  | 53 => ⟨S2621440, .f32⟩
  | 54 => ⟨S2621440, .f32⟩
  | 55 => ⟨S524288x64, .f32⟩
  | 56 => ⟨S2621440x1, .f32⟩
  | 57 => ⟨S_, .i32⟩
  | 58 => ⟨S2621440, .i32⟩
  | 59 => ⟨S2621440, .i1⟩
  | 60 => ⟨S_, .i32⟩
  | 61 => ⟨S2621440, .i32⟩
  | 62 => ⟨S2621440, .i32⟩
  | 63 => ⟨S2621440, .i32⟩
  | 64 => ⟨S2621440x1, .i32⟩
  | 65 => ⟨S2621440x64, .f32⟩
  | 66 => ⟨S2621440x64, .f32⟩
  | 67 => ⟨S2621440x64, .f32⟩
  | 68 => ⟨S_, .f32⟩
  | 69 => ⟨S524288x64, .f32⟩
  | 70 => ⟨S2621440x1, .i32⟩
  | 71 => ⟨S524288x64, .f32⟩
  | 72 => ⟨S1x64, .f32⟩
  | 73 => ⟨S524288x64, .f32⟩
  | 74 => ⟨S524288x64, .f32⟩
  | 75 => ⟨S_, .f32⟩
  | 76 => ⟨S524288x64, .f32⟩
  | 77 => ⟨S524288x64, .f32⟩
  | 78 => ⟨S524288x64, .f32⟩
  | 79 => ⟨S2621440x1, .f32⟩
  | 80 => ⟨S_, .i32⟩
  | 81 => ⟨S2621440, .i32⟩
  | 82 => ⟨S2621440, .i1⟩
  | 83 => ⟨S_, .i32⟩
  | 84 => ⟨S2621440, .i32⟩
  | 85 => ⟨S2621440, .i32⟩
  | 86 => ⟨S2621440, .i32⟩
  | 87 => ⟨S2621440x1, .i32⟩
  | 88 => ⟨S2621440x64, .f32⟩
  | 89 => ⟨S2621440x64, .f32⟩
  | 90 => ⟨S2621440x64, .f32⟩
  | 91 => ⟨S_, .f32⟩
  | 92 => ⟨S524288x64, .f32⟩
  | 93 => ⟨S2621440x1, .i32⟩
  | 94 => ⟨S524288x64, .f32⟩
  | 95 => ⟨S1x64, .f32⟩
  | 96 => ⟨S524288x64, .f32⟩
  | 97 => ⟨S524288x64, .f32⟩
  | 98 => ⟨S_, .f32⟩
  | 99 => ⟨S524288x64, .f32⟩
  | 100 => ⟨S524288x64, .f32⟩
  | 101 => ⟨S_, .f32⟩
  | 102 => ⟨S16384x64, .f32⟩
  | 103 => ⟨S524288x1, .i32⟩
  | 104 => ⟨S16384x64, .f32⟩
  | 105 => ⟨S_, .f32⟩
  | 106 => ⟨S524288, .f32⟩
  | 107 => ⟨S_, .f32⟩
  | 108 => ⟨S16384, .f32⟩
  | 109 => ⟨S524288x1, .i32⟩
  | 110 => ⟨S16384, .f32⟩
  | 111 => ⟨S_, .f32⟩
  | 112 => ⟨S16384, .f32⟩
  | 113 => ⟨S16384, .f32⟩
  | 114 => ⟨S16384x1, .f32⟩
  | 115 => ⟨S16384x64, .f32⟩
  | 116 => ⟨S16384x64, .f32⟩
  | 117 => ⟨S16384x128, .f32⟩
  | 118 => ⟨S1x128, .f32⟩
  | 119 => ⟨S16384x128, .f32⟩
  | 120 => ⟨S16384x128, .f32⟩
  | 121 => ⟨S16384x4051, .f32⟩
  | 122 => ⟨S16384x256, .f32⟩
  | 123 => ⟨S1x256, .f32⟩
  | 124 => ⟨S16384x256, .f32⟩
  | 125 => ⟨S16384x256, .f32⟩
  | 126 => ⟨S_, .f32⟩
  | 127 => ⟨S16384x256, .f32⟩
  | _ => ⟨S524288x1, .f32⟩

abbrev hbmTy0_1 (i : Nat) : BufTy := match i % 128 with
  | 0 => ⟨S16384x256, .f32⟩
  | 1 => ⟨S16384x1, .f32⟩
  | 2 => ⟨S1x1, .f32⟩
  | 3 => ⟨S16384x1, .f32⟩
  | 4 => ⟨S16384x1, .f32⟩
  | 5 => ⟨S16384x1, .f32⟩
  | 6 => ⟨S16384x1, .f32⟩
  | 7 => ⟨S_, .f32⟩
  | 8 => ⟨S16384x1, .f32⟩
  | 9 => ⟨S16384x1, .f32⟩
  | 10 => ⟨S_, .f32⟩
  | 11 => ⟨S16384x1, .f32⟩
  | 12 => ⟨S16384x1, .f32⟩
  | _ => ⟨S524288x1, .f32⟩

abbrev hbmTy (i : Nat) : BufTy := match i / 128 with
  | 0 => hbmTy0_0 i
  | 1 => hbmTy0_1 i
  | _ => ⟨S524288x1, .f32⟩

abbrev bufTy : (tb : Table) → Fin (tcTables nBuf tb) → BufTy
  | .hbm, ⟨i, _⟩ => hbmTy i
  | _, _ => ⟨S524288x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v14 : Ref sig .tc := ⟨.hbm, 35, rfl⟩
abbrev main_c : Ref sig .tc := ⟨.hbm, 36, rfl⟩
abbrev main_v15 : Ref sig .tc := ⟨.hbm, 37, rfl⟩
abbrev main_v16 : Ref sig .tc := ⟨.hbm, 38, rfl⟩
abbrev main_c_3 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_4 : Ref sig .tc := ⟨.hbm, 45, rfl⟩
abbrev main_v22 : Ref sig .tc := ⟨.hbm, 46, rfl⟩
abbrev main_v23 : Ref sig .tc := ⟨.hbm, 47, rfl⟩
abbrev main_c_5 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_6 : Ref sig .tc := ⟨.hbm, 57, rfl⟩
abbrev main_v32 : Ref sig .tc := ⟨.hbm, 58, rfl⟩
abbrev main_v33 : Ref sig .tc := ⟨.hbm, 59, rfl⟩
abbrev main_c_7 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_8 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_call1_cst : Ref sig .tc := ⟨.hbm, 75, rfl⟩
abbrev main_call1_v0 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_c_9 : Ref sig .tc := ⟨.hbm, 80, rfl⟩
abbrev main_v50 : Ref sig .tc := ⟨.hbm, 81, rfl⟩
abbrev main_v51 : Ref sig .tc := ⟨.hbm, 82, rfl⟩
abbrev main_c_10 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_11 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_call2_cst : Ref sig .tc := ⟨.hbm, 98, rfl⟩
abbrev main_call2_v0 : Ref sig .tc := ⟨.hbm, 99, rfl⟩
abbrev main_v65 : Ref sig .tc := ⟨.hbm, 100, rfl⟩
abbrev main_cst_12 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_cst_13 : Ref sig .tc := ⟨.hbm, 105, rfl⟩
abbrev main_v69 : Ref sig .tc := ⟨.hbm, 106, rfl⟩
abbrev main_cst_14 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_cst_15 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_call3_cst : Ref sig .tc := ⟨.hbm, 126, rfl⟩
abbrev main_call3_v0 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_cst_16 : Ref sig .tc := ⟨.hbm, 135, rfl⟩
abbrev main_v94 : Ref sig .tc := ⟨.hbm, 136, rfl⟩
abbrev main_v95 : Ref sig .tc := ⟨.hbm, 137, rfl⟩
abbrev main_cst_17 : Ref sig .tc := ⟨.hbm, 138, rfl⟩
abbrev main_v96 : Ref sig .tc := ⟨.hbm, 139, rfl⟩
abbrev main_v97 : Ref sig .tc := ⟨.hbm, 140, rfl⟩

abbrev nD : Nat := 1
abbrev τ : Topo := Topo.v7x

variable {F : FTy → Type} [FloatOps F]

class Facts₀ : Prop where
  slices_S2x2097152_S1x2097152_0_0 : S2x2097152.Slices ![0, 0] S1x2097152
  shapeCasts_S1x2097152_S2097152 : S1x2097152.ShapeCasts S2097152
  concatenates_S2097152_S524288_S2621440_d0 : Shape.Concatenates [S2097152, S524288] S2621440 0
  slices_S2x2097152_S1x2097152_1_0 : S2x2097152.Slices ![1, 0] S1x2097152
  bcast_S_S2621440 : S_.BroadcastsInDim S2621440 (![] : Fin 0 → Fin S2621440.rank)
  bcast_S_S524288 : S_.BroadcastsInDim S524288 (![] : Fin 0 → Fin S524288.rank)
  bcast_S2621440_S2621440x1_0 : S2621440.BroadcastsInDim S2621440x1 (![0] : Fin 1 → Fin S2621440x1.rank)
  bcast_S2621440x1_S2621440x64_0_1 : S2621440x1.BroadcastsInDim S2621440x64 (![0, 1] : Fin 2 → Fin S2621440x64.rank)
  bcast_S_S524288x64 : S_.BroadcastsInDim S524288x64 (![] : Fin 0 → Fin S524288x64.rank)
  bcast_S64_S1x64_1 : S64.BroadcastsInDim S1x64 (![1] : Fin 1 → Fin S1x64.rank)
  bcast_S1x64_S524288x64_0_1 : S1x64.BroadcastsInDim S524288x64 (![0, 1] : Fin 2 → Fin S524288x64.rank)
  bcast_S_S16384x64 : S_.BroadcastsInDim S16384x64 (![] : Fin 0 → Fin S16384x64.rank)
  bcast_S524288_S524288x1_0 : S524288.BroadcastsInDim S524288x1 (![0] : Fin 1 → Fin S524288x1.rank)
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x64_0_1 : S16384x1.BroadcastsInDim S16384x64 (![0, 1] : Fin 2 → Fin S16384x64.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  concatenates_S16384x128_S16384x3539_S16384x384_S16384x4051_d1 : Shape.Concatenates [S16384x128, S16384x3539, S16384x384] S16384x4051 1
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  scatter_S524288_S2621440x1_S2621440_n_0_0_1_wf : ScatterDims.WF S524288 S2621440x1 S2621440 [] [0] [0] 1
  gather_S524288_S2621440x1_S2621440_n_0_n_n_0_1_1_wf : GatherDims.WF S524288 S2621440x1 S2621440 [] [0] [] [0] [] 1 ![1]
  dot_S524288x1_S1x64_S524288x64_1_0_0_1_n_n_wf : DotDims.WF S524288x1 S1x64 S524288x64 [1] [0] [0] [1] [] []
  gather_S524288x64_S2621440x1_S2621440x64_1_0_n_n_0_1_164_wf : GatherDims.WF S524288x64 S2621440x1 S2621440x64 [1] [0] [] [0] [] 1 ![1, 64]
  scatter_S524288x64_S2621440x1_S2621440x64_1_0_0_1_wf : ScatterDims.WF S524288x64 S2621440x1 S2621440x64 [1] [0] [0] 1
  dot_S524288x64_S64x64_S524288x64_1_0_0_1_n_n_wf : DotDims.WF S524288x64 S64x64 S524288x64 [1] [0] [0] [1] [] []
  scatter_S16384x64_S524288x1_S524288x64_1_0_0_1_wf : ScatterDims.WF S16384x64 S524288x1 S524288x64 [1] [0] [0] 1
  scatter_S16384_S524288x1_S524288_n_0_0_1_wf : ScatterDims.WF S16384 S524288x1 S524288 [] [0] [0] 1
  dot_S16384x64_S64x128_S16384x128_1_0_0_1_n_n_wf : DotDims.WF S16384x64 S64x128 S16384x128 [1] [0] [0] [1] [] []
  dot_S16384x4051_S4051x256_S16384x256_1_0_0_1_n_n_wf : DotDims.WF S16384x4051 S4051x256 S16384x256 [1] [0] [0] [1] [] []
  dot_S16384x256_S256x1_S16384x1_1_0_0_1_n_n_wf : DotDims.WF S16384x256 S256x1 S16384x1 [1] [0] [0] [1] [] []

variable [Facts₀]

def scatter_S524288_S2621440x1_S2621440_n_0_0_1 : ScatterDims S524288 S2621440x1 S2621440 where
  updateWindowDims := []
  insertedWindowDims := [0]
  scatterDimsToOperandDims := [0]
  indexVectorDim := 1
  wf := scatter_S524288_S2621440x1_S2621440_n_0_0_1_wf
def gather_S524288_S2621440x1_S2621440_n_0_n_n_0_1_1 : GatherDims S524288 S2621440x1 S2621440 where
  offsetDims := []
  collapsedSliceDims := [0]
  operandBatchingDims := []
  startIndicesBatchingDims := []
  startIndexMap := [0]
  indexVectorDim := 1
  sliceSizes := ![1]
  wf := gather_S524288_S2621440x1_S2621440_n_0_n_n_0_1_1_wf
def dot_S524288x1_S1x64_S524288x64_1_0_0_1_n_n : DotDims S524288x1 S1x64 S524288x64 where
  lhsContracting := [1]
  rhsContracting := [0]
  lhsNonContracting := [0]
  rhsNonContracting := [1]
  lhsBatch := []
  rhsBatch := []
  wf := dot_S524288x1_S1x64_S524288x64_1_0_0_1_n_n_wf
def gather_S524288x64_S2621440x1_S2621440x64_1_0_n_n_0_1_164 : GatherDims S524288x64 S2621440x1 S2621440x64 where
  offsetDims := [1]
  collapsedSliceDims := [0]
  operandBatchingDims := []
  startIndicesBatchingDims := []
  startIndexMap := [0]
  indexVectorDim := 1
  sliceSizes := ![1, 64]
  wf := gather_S524288x64_S2621440x1_S2621440x64_1_0_n_n_0_1_164_wf
def scatter_S524288x64_S2621440x1_S2621440x64_1_0_0_1 : ScatterDims S524288x64 S2621440x1 S2621440x64 where
  updateWindowDims := [1]
  insertedWindowDims := [0]
  scatterDimsToOperandDims := [0]
  indexVectorDim := 1
  wf := scatter_S524288x64_S2621440x1_S2621440x64_1_0_0_1_wf
def dot_S524288x64_S64x64_S524288x64_1_0_0_1_n_n : DotDims S524288x64 S64x64 S524288x64 where
  lhsContracting := [1]
  rhsContracting := [0]
  lhsNonContracting := [0]
  rhsNonContracting := [1]
  lhsBatch := []
  rhsBatch := []
  wf := dot_S524288x64_S64x64_S524288x64_1_0_0_1_n_n_wf
def scatter_S16384x64_S524288x1_S524288x64_1_0_0_1 : ScatterDims S16384x64 S524288x1 S524288x64 where
  updateWindowDims := [1]
  insertedWindowDims := [0]
  scatterDimsToOperandDims := [0]
  indexVectorDim := 1
  wf := scatter_S16384x64_S524288x1_S524288x64_1_0_0_1_wf
def scatter_S16384_S524288x1_S524288_n_0_0_1 : ScatterDims S16384 S524288x1 S524288 where
  updateWindowDims := []
  insertedWindowDims := [0]
  scatterDimsToOperandDims := [0]
  indexVectorDim := 1
  wf := scatter_S16384_S524288x1_S524288_n_0_0_1_wf
def dot_S16384x64_S64x128_S16384x128_1_0_0_1_n_n : DotDims S16384x64 S64x128 S16384x128 where
  lhsContracting := [1]
  rhsContracting := [0]
  lhsNonContracting := [0]
  rhsNonContracting := [1]
  lhsBatch := []
  rhsBatch := []
  wf := dot_S16384x64_S64x128_S16384x128_1_0_0_1_n_n_wf
def dot_S16384x4051_S4051x256_S16384x256_1_0_0_1_n_n : DotDims S16384x4051 S4051x256 S16384x256 where
  lhsContracting := [1]
  rhsContracting := [0]
  lhsNonContracting := [0]
  rhsNonContracting := [1]
  lhsBatch := []
  rhsBatch := []
  wf := dot_S16384x4051_S4051x256_S16384x256_1_0_0_1_n_n_wf
def dot_S16384x256_S256x1_S16384x1_1_0_0_1_n_n : DotDims S16384x256 S256x1 S16384x1 where
  lhsContracting := [1]
  rhsContracting := [0]
  lhsNonContracting := [0]
  rhsNonContracting := [1]
  lhsBatch := []
  rhsBatch := []
  wf := dot_S16384x256_S256x1_S16384x1_1_0_0_1_n_n_wf

class Facts : Prop extends Facts₀ where

variable [Facts]
-- ==== Proof.KRun.lean ====
/-
  The idealized kernel's run with its result named. @main is thirteen segments — stretches of host operations and
  the four pipelined products — and the launch runs them in order from any memory with zero counters: every weakly
  fair execution terminates, nothing faults, the argument arrays end as launched, and the result array ends at the
  contents the last segment boundary assigns it (`W13`: the fold of the host stretches and of each product's
  write-backs over the launch memory). The frame of the program states the same run and keeps the arguments only;
  here the result's contents are kept too, for the value claim to read.
-/
import proofs.«146187_j45509473468604_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run of @main: the result array at the last boundary's contents, the arguments as launched. -/
theorem run_named : θ_run defs (onTc (τ := τ) (main (F := F))) ⟨m, fun _ => 0, ρ⟩ (fun r => ∀ c : Dev nD,
      r.2.mem ((c.tc : Thread nD τ).loc main_v82) = W13 m ρ c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v82 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c),
       (h c _ (mem_uc main_arg14 (by decide))).trans (W13_main_arg14 m ρ c)⟩)

end Cert.KernelIdeal.RunValue

end
-- ==== Proof.Chains.lean ====
/-
  The host operations the kernel's program and the reference share, as functions of the buffers they read: the two
  programs apply the same operations in the same order around their dense products, so each stretch is carried as one
  function and never opened. The two printed programs declare their shapes and dimension records separately (with the
  same fields), so each function is spelled once per program and the two spellings are one function.
-/
import proofs.«146187_j45509473468604_1_alg».proof.Proof.Gen.KernelIdeal
import proofs.«146187_j45509473468604_1_alg».proof.Proof.Gen.ReferenceIdeal

set_option maxRecDepth 8192

open Idealize.ShloMosaic Idealize.ShloMosaic.TcCoe

noncomputable section

namespace Cert.Chains

variable {F : FTy → Type} [FloatOps F]

section OfKernel
open Cert.KernelIdeal Cert.KernelIdeal.Facts₀ Cert.KernelIdeal.Facts

/-- The source node of each edge, the self-loops appended: row 0 of the edge list, then `0 … N-1`. -/
def srcWordsK (e : (⟨S2x2097152, .i32⟩ : BufTy).Contents (Elt F)) : (⟨S2621440, .i32⟩ : BufTy).Contents (Elt F) :=
  (concatenate S2621440 0 [⟨S2097152, (shapeCast _ (extractStridedSlice S1x2097152 ![0, 0] e slices_S2x2097152_S1x2097152_0_0) shapeCasts_S1x2097152_S2097152)⟩, ⟨S524288, (iotaInDim S524288 32 0)⟩] concatenates_S2097152_S524288_S2621440_d0)

/-- The destination node of each edge, the self-loops appended: row 1 of the edge list, then `0 … N-1`. -/
def dstWordsK (e : (⟨S2x2097152, .i32⟩ : BufTy).Contents (Elt F)) : (⟨S2621440, .i32⟩ : BufTy).Contents (Elt F) :=
  (concatenate S2621440 0 [⟨S2097152, (shapeCast _ (extractStridedSlice S1x2097152 ![1, 0] e slices_S2x2097152_S1x2097152_1_0) shapeCasts_S1x2097152_S2097152)⟩, ⟨S524288, (iotaInDim S524288 32 0)⟩] concatenates_S2097152_S524288_S2621440_d0)

/-- The symmetric normalisation of the edges: the degree of each node is the number of edges into it, `dinv` its
    inverse square root where the degree is positive and zero elsewhere, and an edge's weight is
    `dinv[source] · dinv[destination]` (each index wrapped once if negative). -/
def edgeNormK (src dst : (⟨S2621440, .i32⟩ : BufTy).Contents (Elt F)) : (⟨S2621440, .f32⟩ : BufTy).Contents (Elt F) :=
  (mulf (Host.gather gather_S524288_S2621440x1_S2621440_n_0_n_n_0_1_1 (select (cmpf (F := F) .ogt (Host.scatterAdd scatter_S524288_S2621440x1_S2621440_n_0_0_1 (broadcastInDim S524288 ![] bcast_S_S524288 (constant S_ .f32 0x00000000#32)) (broadcastInDim S2621440x1 ![0] bcast_S2621440_S2621440x1_0 dst) (broadcastInDim S2621440 ![] bcast_S_S2621440 (constant S_ .f32 0x3F800000#32))) (broadcastInDim S524288 ![] bcast_S_S524288 (constant S_ .f32 0x00000000#32))) (Host.rsqrt (Host.scatterAdd scatter_S524288_S2621440x1_S2621440_n_0_0_1 (broadcastInDim S524288 ![] bcast_S_S524288 (constant S_ .f32 0x00000000#32)) (broadcastInDim S2621440x1 ![0] bcast_S2621440_S2621440x1_0 dst) (broadcastInDim S2621440 ![] bcast_S_S2621440 (constant S_ .f32 0x3F800000#32)))) (broadcastInDim S524288 ![] bcast_S_S524288 (id (constant S_ .f32 0x00000000#32)))) (broadcastInDim S2621440x1 ![0] bcast_S2621440_S2621440x1_0 (select (cmpi .slt src (broadcastInDim S2621440 ![] bcast_S_S2621440 (constantI S_ 32 0#32))) (addi src (broadcastInDim S2621440 ![] bcast_S_S2621440 (constantI S_ 32 524288#32))) src))) (Host.gather gather_S524288_S2621440x1_S2621440_n_0_n_n_0_1_1 (select (cmpf (F := F) .ogt (Host.scatterAdd scatter_S524288_S2621440x1_S2621440_n_0_0_1 (broadcastInDim S524288 ![] bcast_S_S524288 (constant S_ .f32 0x00000000#32)) (broadcastInDim S2621440x1 ![0] bcast_S2621440_S2621440x1_0 dst) (broadcastInDim S2621440 ![] bcast_S_S2621440 (constant S_ .f32 0x3F800000#32))) (broadcastInDim S524288 ![] bcast_S_S524288 (constant S_ .f32 0x00000000#32))) (Host.rsqrt (Host.scatterAdd scatter_S524288_S2621440x1_S2621440_n_0_0_1 (broadcastInDim S524288 ![] bcast_S_S524288 (constant S_ .f32 0x00000000#32)) (broadcastInDim S2621440x1 ![0] bcast_S2621440_S2621440x1_0 dst) (broadcastInDim S2621440 ![] bcast_S_S2621440 (constant S_ .f32 0x3F800000#32)))) (broadcastInDim S524288 ![] bcast_S_S524288 (id (constant S_ .f32 0x00000000#32)))) (broadcastInDim S2621440x1 ![0] bcast_S2621440_S2621440x1_0 (select (cmpi .slt dst (broadcastInDim S2621440 ![] bcast_S_S2621440 (constantI S_ 32 0#32))) (addi dst (broadcastInDim S2621440 ![] bcast_S_S2621440 (constantI S_ 32 524288#32))) dst))))

/-- One graph-convolution layer after its dense product `h`: each edge carries its weight times the source node's row of
    `h`, the rows are summed into the destination nodes, the bias is added, and negative entries are cut to zero. -/
def gcnLayerK (h : (⟨S524288x64, .f32⟩ : BufTy).Contents (Elt F)) (nrm : (⟨S2621440, .f32⟩ : BufTy).Contents (Elt F)) (src dst : (⟨S2621440, .i32⟩ : BufTy).Contents (Elt F))
    (b : (⟨S64, .f32⟩ : BufTy).Contents (Elt F)) : (⟨S524288x64, .f32⟩ : BufTy).Contents (Elt F) :=
  (maximumf (addf (Host.scatterAdd scatter_S524288x64_S2621440x1_S2621440x64_1_0_0_1 (broadcastInDim S524288x64 ![] bcast_S_S524288x64 (constant S_ .f32 0x00000000#32)) (broadcastInDim S2621440x1 ![0] bcast_S2621440_S2621440x1_0 dst) (mulf (broadcastInDim S2621440x64 ![0, 1] bcast_S2621440x1_S2621440x64_0_1 (broadcastInDim S2621440x1 ![0] bcast_S2621440_S2621440x1_0 nrm)) (Host.gather gather_S524288x64_S2621440x1_S2621440x64_1_0_n_n_0_1_164 h (broadcastInDim S2621440x1 ![0] bcast_S2621440_S2621440x1_0 (select (cmpi .slt src (broadcastInDim S2621440 ![] bcast_S_S2621440 (constantI S_ 32 0#32))) (addi src (broadcastInDim S2621440 ![] bcast_S_S2621440 (constantI S_ 32 524288#32))) src))))) (broadcastInDim S524288x64 ![0, 1] bcast_S1x64_S524288x64_0_1 (broadcastInDim S1x64 ![1] bcast_S64_S1x64_1 b))) (broadcastInDim S524288x64 ![] bcast_S_S524288x64 (constant S_ .f32 0x00000000#32)))

/-- The mean of the node rows of each graph: the rows summed per graph, divided by the number of the graph's nodes, at
    least one. -/
def meanPoolK (x : (⟨S524288x64, .f32⟩ : BufTy).Contents (Elt F)) (batch : (⟨S524288, .i32⟩ : BufTy).Contents (Elt F)) : (⟨S16384x64, .f32⟩ : BufTy).Contents (Elt F) :=
  (Host.divf (Host.scatterAdd scatter_S16384x64_S524288x1_S524288x64_1_0_0_1 (broadcastInDim S16384x64 ![] bcast_S_S16384x64 (constant S_ .f32 0x00000000#32)) (broadcastInDim S524288x1 ![0] bcast_S524288_S524288x1_0 batch) x) (broadcastInDim S16384x64 ![0, 1] bcast_S16384x1_S16384x64_0_1 (broadcastInDim S16384x1 ![0] bcast_S16384_S16384x1_0 (maximumf (Host.scatterAdd scatter_S16384_S524288x1_S524288_n_0_0_1 (broadcastInDim S16384 ![] bcast_S_S16384 (constant S_ .f32 0x00000000#32)) (broadcastInDim S524288x1 ![0] bcast_S524288_S524288x1_0 batch) (broadcastInDim S524288 ![] bcast_S_S524288 (constant S_ .f32 0x3F800000#32))) (broadcastInDim S16384 ![] bcast_S_S16384 (constant S_ .f32 0x3F800000#32))))))

/-- The rows of the first dense layer's weights that meet the graph embedding (rows `0 … 127`). -/
def wfRowsG (a11 : (⟨S4051x256, .f32⟩ : BufTy).Contents (Elt F)) : (⟨S128x256, .f32⟩ : BufTy).Contents (Elt F) :=
  extractStridedSlice S128x256 ![0, 0] a11 slices_S4051x256_S128x256_0_0
/-- The rows that meet the compound features (rows `128 … 3666`). -/
def wfRowsC (a11 : (⟨S4051x256, .f32⟩ : BufTy).Contents (Elt F)) : (⟨S3539x256, .f32⟩ : BufTy).Contents (Elt F) :=
  extractStridedSlice S3539x256 ![128, 0] a11 slices_S4051x256_S3539x256_128_0
/-- The rows that meet the protein features (rows `3667 … 4050`). -/
def wfRowsP (a11 : (⟨S4051x256, .f32⟩ : BufTy).Contents (Elt F)) : (⟨S384x256, .f32⟩ : BufTy).Contents (Elt F) :=
  extractStridedSlice S384x256 ![3667, 0] a11 slices_S4051x256_S384x256_3667_0

end OfKernel

section OfReference
open Cert.ReferenceIdeal Cert.ReferenceIdeal.Facts₀ Cert.ReferenceIdeal.Facts

/-- The source node of each edge, the self-loops appended: row 0 of the edge list, then `0 … N-1`. -/
def srcWordsR (e : (⟨S2x2097152, .i32⟩ : BufTy).Contents (Elt F)) : (⟨S2621440, .i32⟩ : BufTy).Contents (Elt F) :=
  (concatenate S2621440 0 [⟨S2097152, (shapeCast _ (extractStridedSlice S1x2097152 ![0, 0] e slices_S2x2097152_S1x2097152_0_0) shapeCasts_S1x2097152_S2097152)⟩, ⟨S524288, (iotaInDim S524288 32 0)⟩] concatenates_S2097152_S524288_S2621440_d0)

/-- The destination node of each edge, the self-loops appended: row 1 of the edge list, then `0 … N-1`. -/
def dstWordsR (e : (⟨S2x2097152, .i32⟩ : BufTy).Contents (Elt F)) : (⟨S2621440, .i32⟩ : BufTy).Contents (Elt F) :=
  (concatenate S2621440 0 [⟨S2097152, (shapeCast _ (extractStridedSlice S1x2097152 ![1, 0] e slices_S2x2097152_S1x2097152_1_0) shapeCasts_S1x2097152_S2097152)⟩, ⟨S524288, (iotaInDim S524288 32 0)⟩] concatenates_S2097152_S524288_S2621440_d0)

/-- The symmetric normalisation of the edges: the degree of each node is the number of edges into it, `dinv` its
    inverse square root where the degree is positive and zero elsewhere, and an edge's weight is
    `dinv[source] · dinv[destination]` (each index wrapped once if negative). -/
def edgeNormR (src dst : (⟨S2621440, .i32⟩ : BufTy).Contents (Elt F)) : (⟨S2621440, .f32⟩ : BufTy).Contents (Elt F) :=
  (mulf (Host.gather gather_S524288_S2621440x1_S2621440_n_0_n_n_0_1_1 (select (cmpf (F := F) .ogt (Host.scatterAdd scatter_S524288_S2621440x1_S2621440_n_0_0_1 (broadcastInDim S524288 ![] bcast_S_S524288 (constant S_ .f32 0x00000000#32)) (broadcastInDim S2621440x1 ![0] bcast_S2621440_S2621440x1_0 dst) (broadcastInDim S2621440 ![] bcast_S_S2621440 (constant S_ .f32 0x3F800000#32))) (broadcastInDim S524288 ![] bcast_S_S524288 (constant S_ .f32 0x00000000#32))) (Host.rsqrt (Host.scatterAdd scatter_S524288_S2621440x1_S2621440_n_0_0_1 (broadcastInDim S524288 ![] bcast_S_S524288 (constant S_ .f32 0x00000000#32)) (broadcastInDim S2621440x1 ![0] bcast_S2621440_S2621440x1_0 dst) (broadcastInDim S2621440 ![] bcast_S_S2621440 (constant S_ .f32 0x3F800000#32)))) (broadcastInDim S524288 ![] bcast_S_S524288 (id (constant S_ .f32 0x00000000#32)))) (broadcastInDim S2621440x1 ![0] bcast_S2621440_S2621440x1_0 (select (cmpi .slt src (broadcastInDim S2621440 ![] bcast_S_S2621440 (constantI S_ 32 0#32))) (addi src (broadcastInDim S2621440 ![] bcast_S_S2621440 (constantI S_ 32 524288#32))) src))) (Host.gather gather_S524288_S2621440x1_S2621440_n_0_n_n_0_1_1 (select (cmpf (F := F) .ogt (Host.scatterAdd scatter_S524288_S2621440x1_S2621440_n_0_0_1 (broadcastInDim S524288 ![] bcast_S_S524288 (constant S_ .f32 0x00000000#32)) (broadcastInDim S2621440x1 ![0] bcast_S2621440_S2621440x1_0 dst) (broadcastInDim S2621440 ![] bcast_S_S2621440 (constant S_ .f32 0x3F800000#32))) (broadcastInDim S524288 ![] bcast_S_S524288 (constant S_ .f32 0x00000000#32))) (Host.rsqrt (Host.scatterAdd scatter_S524288_S2621440x1_S2621440_n_0_0_1 (broadcastInDim S524288 ![] bcast_S_S524288 (constant S_ .f32 0x00000000#32)) (broadcastInDim S2621440x1 ![0] bcast_S2621440_S2621440x1_0 dst) (broadcastInDim S2621440 ![] bcast_S_S2621440 (constant S_ .f32 0x3F800000#32)))) (broadcastInDim S524288 ![] bcast_S_S524288 (id (constant S_ .f32 0x00000000#32)))) (broadcastInDim S2621440x1 ![0] bcast_S2621440_S2621440x1_0 (select (cmpi .slt dst (broadcastInDim S2621440 ![] bcast_S_S2621440 (constantI S_ 32 0#32))) (addi dst (broadcastInDim S2621440 ![] bcast_S_S2621440 (constantI S_ 32 524288#32))) dst))))

/-- One graph-convolution layer after its dense product `h`: each edge carries its weight times the source node's row of
    `h`, the rows are summed into the destination nodes, the bias is added, and negative entries are cut to zero. -/
def gcnLayerR (h : (⟨S524288x64, .f32⟩ : BufTy).Contents (Elt F)) (nrm : (⟨S2621440, .f32⟩ : BufTy).Contents (Elt F)) (src dst : (⟨S2621440, .i32⟩ : BufTy).Contents (Elt F))
    (b : (⟨S64, .f32⟩ : BufTy).Contents (Elt F)) : (⟨S524288x64, .f32⟩ : BufTy).Contents (Elt F) :=
  (maximumf (addf (Host.scatterAdd scatter_S524288x64_S2621440x1_S2621440x64_1_0_0_1 (broadcastInDim S524288x64 ![] bcast_S_S524288x64 (constant S_ .f32 0x00000000#32)) (broadcastInDim S2621440x1 ![0] bcast_S2621440_S2621440x1_0 dst) (mulf (broadcastInDim S2621440x64 ![0, 1] bcast_S2621440x1_S2621440x64_0_1 (broadcastInDim S2621440x1 ![0] bcast_S2621440_S2621440x1_0 nrm)) (Host.gather gather_S524288x64_S2621440x1_S2621440x64_1_0_n_n_0_1_164 h (broadcastInDim S2621440x1 ![0] bcast_S2621440_S2621440x1_0 (select (cmpi .slt src (broadcastInDim S2621440 ![] bcast_S_S2621440 (constantI S_ 32 0#32))) (addi src (broadcastInDim S2621440 ![] bcast_S_S2621440 (constantI S_ 32 524288#32))) src))))) (broadcastInDim S524288x64 ![0, 1] bcast_S1x64_S524288x64_0_1 (broadcastInDim S1x64 ![1] bcast_S64_S1x64_1 b))) (broadcastInDim S524288x64 ![] bcast_S_S524288x64 (constant S_ .f32 0x00000000#32)))

/-- The mean of the node rows of each graph: the rows summed per graph, divided by the number of the graph's nodes, at
    least one. -/
def meanPoolR (x : (⟨S524288x64, .f32⟩ : BufTy).Contents (Elt F)) (batch : (⟨S524288, .i32⟩ : BufTy).Contents (Elt F)) : (⟨S16384x64, .f32⟩ : BufTy).Contents (Elt F) :=
  (Host.divf (Host.scatterAdd scatter_S16384x64_S524288x1_S524288x64_1_0_0_1 (broadcastInDim S16384x64 ![] bcast_S_S16384x64 (constant S_ .f32 0x00000000#32)) (broadcastInDim S524288x1 ![0] bcast_S524288_S524288x1_0 batch) x) (broadcastInDim S16384x64 ![0, 1] bcast_S16384x1_S16384x64_0_1 (broadcastInDim S16384x1 ![0] bcast_S16384_S16384x1_0 (maximumf (Host.scatterAdd scatter_S16384_S524288x1_S524288_n_0_0_1 (broadcastInDim S16384 ![] bcast_S_S16384 (constant S_ .f32 0x00000000#32)) (broadcastInDim S524288x1 ![0] bcast_S524288_S524288x1_0 batch) (broadcastInDim S524288 ![] bcast_S_S524288 (constant S_ .f32 0x3F800000#32))) (broadcastInDim S16384 ![] bcast_S_S16384 (constant S_ .f32 0x3F800000#32))))))

/-- A bias row added to every row of a `16384 × 128` array. -/
def biasRowsR (y : (⟨S16384x128, .f32⟩ : BufTy).Contents (Elt F)) (b : (⟨S128, .f32⟩ : BufTy).Contents (Elt F)) : (⟨S16384x128, .f32⟩ : BufTy).Contents (Elt F) :=
  addf y (broadcastInDim S16384x128 ![0, 1] bcast_S1x128_S16384x128_0_1 (broadcastInDim S1x128 ![1] bcast_S128_S1x128_1 b))

/-- The reference's head after the graph embedding `g`: the three feature blocks joined along the columns, the dense layer
    with its bias cut at zero, the last dense layer with its bias, and the logistic function spelled
    `1 / (1 + exp (-x))`. -/
def headR (g : (⟨S16384x128, .f32⟩ : BufTy).Contents (Elt F)) (a1 : (⟨S16384x3539, .f32⟩ : BufTy).Contents (Elt F)) (a2 : (⟨S16384x384, .f32⟩ : BufTy).Contents (Elt F))
    (a11 : (⟨S4051x256, .f32⟩ : BufTy).Contents (Elt F)) (a12 : (⟨S256, .f32⟩ : BufTy).Contents (Elt F)) (a13 : (⟨S256x1, .f32⟩ : BufTy).Contents (Elt F)) (a14 : (⟨S1, .f32⟩ : BufTy).Contents (Elt F)) :
    (⟨S16384x1, .f32⟩ : BufTy).Contents (Elt F) :=
  Host.divf (broadcastInDim S16384x1 ![] bcast_S_S16384x1 (constant S_ .f32 0x3F800000#32)) (addf (broadcastInDim S16384x1 ![] bcast_S_S16384x1 (constant S_ .f32 0x3F800000#32)) (Host.exp (Host.negf (addf (Host.dotGeneral dot_S16384x256_S256x1_S16384x1_1_0_0_1_n_n none (maximumf (addf (Host.dotGeneral dot_S16384x4051_S4051x256_S16384x256_1_0_0_1_n_n none ((concatenate S16384x4051 1 [⟨S16384x128, g⟩, ⟨S16384x3539, a1⟩, ⟨S16384x384, a2⟩] concatenates_S16384x128_S16384x3539_S16384x384_S16384x4051_d1) : FVec F S16384x4051 .f32) a11) (broadcastInDim S16384x256 ![0, 1] bcast_S1x256_S16384x256_0_1 (broadcastInDim S1x256 ![1] bcast_S256_S1x256_1 a12))) (broadcastInDim S16384x256 ![] bcast_S_S16384x256 (constant S_ .f32 0x00000000#32))) a13) (broadcastInDim S16384x1 ![0, 1] bcast_S1x1_S16384x1_0_1 (broadcastInDim S1x1 ![1] bcast_S1_S1x1_1 a14))))))

end OfReference

theorem srcWords_eq (e : (⟨Cert.KernelIdeal.S2x2097152, .i32⟩ : BufTy).Contents (Elt F)) : srcWordsK (F := F) e = srcWordsR e := rfl
theorem dstWords_eq (e : (⟨Cert.KernelIdeal.S2x2097152, .i32⟩ : BufTy).Contents (Elt F)) : dstWordsK (F := F) e = dstWordsR e := rfl
theorem edgeNorm_eq (src dst : (⟨Cert.KernelIdeal.S2621440, .i32⟩ : BufTy).Contents (Elt F)) : edgeNormK (F := F) src dst = edgeNormR src dst := rfl
theorem gcnLayer_eq (h : (⟨Cert.KernelIdeal.S524288x64, .f32⟩ : BufTy).Contents (Elt F)) (nrm : (⟨Cert.KernelIdeal.S2621440, .f32⟩ : BufTy).Contents (Elt F))
    (src dst : (⟨Cert.KernelIdeal.S2621440, .i32⟩ : BufTy).Contents (Elt F)) (b : (⟨Cert.KernelIdeal.S64, .f32⟩ : BufTy).Contents (Elt F)) :
    gcnLayerK (F := F) h nrm src dst b = gcnLayerR h nrm src dst b := rfl
theorem meanPool_eq (x : (⟨Cert.KernelIdeal.S524288x64, .f32⟩ : BufTy).Contents (Elt F)) (batch : (⟨Cert.KernelIdeal.S524288, .i32⟩ : BufTy).Contents (Elt F)) :
    meanPoolK (F := F) x batch = meanPoolR x batch := rfl
end Cert.Chains

end
-- ==== Proof.LibPlainDot.lean ====
/-
  The plain matrix product read at an entry, over the extended reals.

  For the dimension numbers of an ordinary product of an `M × K` matrix by a `K × N` matrix
  (`DotDims.plain M K N`: no batch axis, the left operand contracted on its columns, the right one on its rows),
  at the ideal values:

  * a `tpu.matmul` into the zero accumulator, at entry `(p, q)`, is `∑ k, lhs (p, k) * rhs (k, q)`
    (`matmul_zero_plain`);
  * the host's `dot_general`, at entry `(p, q)`, is the same sum, whatever its schedule key (`dotGeneral_plain`).

  Both are generic in the three extents and in the operands' float formats (a change of format is the identity
  at the ideal values). The contraction index of these dimension numbers has one axis, of extent `K`; the sum over
  it is re-indexed to a sum over `Fin K` through `ValueIdx.contrEquiv1`, and the operand indices at output index
  `(p, q)` and contraction coordinate `k` are `(p, k)` and `(k, q)`, coordinate by coordinate.
-/
import Idealize.ShloMosaic.Lib.ValueIdx
import Idealize.ShloMosaic.PureOps.Ideal.Laws

open Idealize.ShloMosaic Idealize.ShloMosaic.ValueIdx
open scoped BigOperators

noncomputable section

namespace Cert.LibPlainDot

variable {M K N : Nat}

/-- The left operand's index at output `(p, q)` and contraction coordinate `k` is `(p, k)`. -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ => exact contrEquiv1_symm_val (DotDims.plain M K N) K rfl rfl k)

/-- The right operand's index at output `(p, q)` and contraction coordinate `k` is `(k, q)`. -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact contrEquiv1_symm_val (DotDims.plain M K N) K rfl rfl k
    | ⟨1, _⟩ => rfl)

/-- A `tpu.matmul` of an `M × K` by a `K × N` operand into the zero accumulator, at entry `(p, q)`: the sum over
    `k` of `lhs (p, k) * rhs (k, q)`. -/
theorem matmul_zero_plain {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- The host's `dot_general` of an `M × K` by a `K × N` operand, at entry `(p, q)`: the same sum. -/
theorem dotGeneral_plain {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.LibPlainDot

end
-- ==== Proof.MatProd.lean ====
/-
  The matrix product as one function of two arrays, entry by entry, over the extended reals, and its two
  readings: a `tpu.matmul` into the zero accumulator and the host's `dot_general`, each with the dimension
  numbers of an ordinary `M × K` by `K × N` product, are this function (a change of float format on the way in is
  the identity at the ideal values).
-/
import proofs.«146187_j45509473468604_1_alg».proof.Proof.LibPlainDot

open Idealize.ShloMosaic Idealize.ShloMosaic.ValueIdx
open scoped BigOperators

noncomputable section

namespace Cert.Spec

/-- Entry `(p, q)` of the product of an `M × K` array by a `K × N` array: `∑ k, x (p, k) * w (k, q)`. -/
def matProd {M K N : Nat} (x : FVec Ideal ⟨2, ![M, K]⟩ .f32) (w : FVec Ideal ⟨2, ![K, N]⟩ .f32) :
    FVec Ideal ⟨2, ![M, N]⟩ .f32 :=
  fun i => ∑ k : Fin K, x (ix2 (i 0) k) * w (ix2 k (i 1))

theorem matProd_apply {M K N : Nat} (x : FVec Ideal ⟨2, ![M, K]⟩ .f32) (w : FVec Ideal ⟨2, ![K, N]⟩ .f32)
    (p : Fin M) (q : Fin N) : matProd x w (ix2 p q) = ∑ k : Fin K, x (ix2 p k) * w (ix2 k q) := rfl

/-- The host's `dot_general` with the plain dimension numbers is the matrix product, as whole arrays. -/
theorem dotGeneral_plain_eq {M K N : Nat} (prec : Option ContractPrecision) (sched : HostSchedule)
    (x : FVec Ideal ⟨2, ![M, K]⟩ .f32) (w : FVec Ideal ⟨2, ![K, N]⟩ .f32) :
    FloatOps.dotGeneral (DotDims.plain M K N) prec sched x w = matProd x w := by
  funext i
  obtain ⟨p, q, rfl⟩ : ∃ (p : Fin M) (q : Fin N), i = ix2 p q := ⟨i 0, i 1, eq_ix2 i⟩
  exact Cert.LibPlainDot.dotGeneral_plain prec sched x w p q

end Cert.Spec

end
-- ==== Proof.Bias.lean ====
/-
  A matrix product with a bias row added to every row, entry by entry:
  `(x · w + b) (p, q) = ∑ k, x (p, k) * w (k, q) + b q`. The reference spells the bias as the row broadcast twice
  (`[N] → [1, N] → [M, N]`) and added to the product; read at an entry that is this function.
-/
import proofs.«146187_j45509473468604_1_alg».proof.Proof.MatProd
import proofs.«146187_j45509473468604_1_alg».proof.Proof.Chains
import Idealize.ShloMosaic.Lib.Pipeline.Value
import Idealize.ShloMosaic.Lib.ValueIdx

set_option maxRecDepth 16384

noncomputable section

open Idealize.ShloMosaic Idealize.ShloMosaic.ValueIdx
open scoped BigOperators

namespace Cert.Spec

/-- Entry `(p, q)` of `x · w` plus the bias at column `q`. -/
def biasedProd {M K N : Nat} (x : FVec Ideal ⟨2, ![M, K]⟩ .f32) (w : FVec Ideal ⟨2, ![K, N]⟩ .f32)
    (b : FVec Ideal ⟨1, ![N]⟩ .f32) : FVec Ideal ⟨2, ![M, N]⟩ .f32 :=
  fun i => matProd x w i + b (ix1 (i 1))

theorem biasedProd_apply {M K N : Nat} (x : FVec Ideal ⟨2, ![M, K]⟩ .f32) (w : FVec Ideal ⟨2, ![K, N]⟩ .f32)
    (b : FVec Ideal ⟨1, ![N]⟩ .f32) (p : Fin M) (q : Fin N) :
    biasedProd x w b (ix2 p q) = (∑ k : Fin K, x (ix2 p k) * w (ix2 k q)) + b (ix1 q) := rfl

/-- The reference's bias rows over a product are the biased product. -/
theorem biasRows_matProd (x : FVec Ideal ⟨2, ![16384, 64]⟩ .f32) (w : FVec Ideal ⟨2, ![64, 128]⟩ .f32)
    (b : FVec Ideal ⟨1, ![128]⟩ .f32) :
    Cert.Chains.biasRowsR (F := Ideal) (matProd x w) b = biasedProd x w b := by
  funext i
  obtain ⟨p, q, rfl⟩ : ∃ (p : Fin 16384) (q : Fin 128), i = ix2 p q := ⟨i 0, i 1, eq_ix2 i⟩
  unfold Cert.Chains.biasRowsR
  refine congrArg (fun z : Ideal .f32 => matProd x w (ix2 p q) + z) ?_
  refine (broadcastInDim_apply _ _ _ (ix2 p q) (ix2 (0 : Fin 1) q) fun a => ?_).trans ?_
  · match a with
    | ⟨0, _⟩ => rfl
    | ⟨1, _⟩ => rfl
  · refine broadcastInDim_apply _ _ _ (ix2 (0 : Fin 1) q) (ix1 q) fun a => ?_
    match a with
    | ⟨0, _⟩ => rfl

end Cert.Spec

end
-- ==== Proof.Region0.lean ====
/-
  The first dense product, `node_x · W1`, read off its pipeline: a grid of 64 points, point `t` staging rows
  `8192 t … 8192 t + 8191` of the `524288 × 1` left operand and the whole `1 × 64` right operand, multiplying them
  into a zero accumulator and writing the `8192 × 64` result back as rows `8192 t …` of the output. The blocks tile
  the output, and block `t` of the matrix product of the two whole arrays is the product of block `t` of the left
  operand by the right operand (an entry of a product depends on its own row of the left operand only), so the
  output array ends as the matrix product of the arrays the region found — whatever those arrays are.
-/
import proofs.«146187_j45509473468604_1_alg».proof.Proof.Gen.KernelIdeal.Frame
import proofs.«146187_j45509473468604_1_alg».proof.Proof.MatProd
import Idealize.ShloMosaic.Lib.Pipeline.Value
import Idealize.ShloMosaic.Lib.ValueIdx

set_option maxRecDepth 16384

noncomputable section

namespace Cert.KernelIdeal.RegionValue

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)
open scoped BigOperators

-- the buffer contents when the region is entered: any
variable (V : (c : Dev nD) → (b : Ref sig .tc) → Buf (Elt Ideal) ((c : Thread nD τ).loc b))

theorem zero_off2 : (![0, 0] : Fin 2 → Nat) = fun _ => 0 := funext fun a => by fin_cases a <;> rfl

/-- The body's stored value at entry `(r, q)` of the block: the product's sum over the one contracted axis. -/
theorem pay0_apply (x0 : Vec Ideal S8192x1 .f32) (x1 : Vec Ideal S1x64 .f32) (r : Fin 8192) (q : Fin 64) :
    k0_pay1 (F := Ideal) x0 x1 (ix2 r q) = ∑ k : Fin 1, x0 (ix2 r k) * x1 (ix2 k q) := by
  unfold k0_pay1
  exact Cert.LibPlainDot.matmul_zero_plain (M := 8192) (K := 1) (N := 64) none _ _ r q

/-- The printed index maps over the grid: point `t` is at row block `t` of the left operand and of the output, and at
    the one block of the right operand. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the matrix product of the two arrays as the region finds them. -/
theorem flushed0 (c : Dev nD) (t : Fin cfg0.N) :
    (dat0 (F := Ideal) V c).flushed 2 t = ((cfg0.win 2).blk t).view.read (Elt Ideal)
      (matProd (M := 524288) (K := 1) (N := 64) (V c main_arg0) (V c main_arg5)) := by
  show (cfg0.win 2).cut (grid0.coords t) ((dat0 V c).after 2 t) = _
  rw [after0_2]
  unfold out0_2
  rw [View.canon_unit_zero zero_off2]
  simp only [View.ld_unit_zero (S := S8192x1) zero_off2, View.ld_unit_zero (S := S1x64) zero_off2]
  obtain ⟨e00, e01, e10, e11, e20, e21⟩ := idx_facts0 t
  funext j
  obtain ⟨r, q, rfl⟩ : ∃ (r : Fin 8192) (q : Fin 64), j = ix2 r q := ⟨j 0, j 1, eq_ix2 j⟩
  show k0_pay1 (iblk0 V c 0 t) (iblk0 V c 1 t) (ix2 r q) = matProd (M := 524288) (K := 1) (N := 64) (V c main_arg0) (V c main_arg5) (((cfg0.win 2).blk t).view.emb (ix2 r q))
  refine (pay0_apply (iblk0 V c 0 t) (iblk0 V c 1 t) r q).trans ?_
  refine Finset.sum_congr rfl fun k _ => ?_
  -- the input blocks' entries sit in the arrays where the output block's rectangle says
  have h0 : ((cfg0.win 0).blk t).view.emb (ix2 r k) = ix2 ((((cfg0.win 2).blk t).view.emb (ix2 r q)) 0) k := by
    funext a; apply Fin.ext
    match a with
    | ⟨0, _⟩ => show win0_0.index t (0 : Fin 2) * 8192 + 1 * r.val = win0_2.index t (0 : Fin 2) * 8192 + 1 * r.val; omega
    | ⟨1, _⟩ => show win0_0.index t (1 : Fin 2) * 1 + 1 * k.val = k.val; omega
  have h1 : ((cfg0.win 1).blk t).view.emb (ix2 k q) = ix2 k ((((cfg0.win 2).blk t).view.emb (ix2 r q)) 1) := by
    funext a; apply Fin.ext
    match a with
    | ⟨0, _⟩ => show win0_1.index t (0 : Fin 2) * 1 + 1 * k.val = k.val; omega
    | ⟨1, _⟩ => show win0_1.index t (1 : Fin 2) * 64 + 1 * q.val = win0_2.index t (1 : Fin 2) * 64 + 1 * q.val; omega
  have e0 : (V c main_arg0 : FVec Ideal S524288x1 .f32) (((cfg0.win 0).blk t).view.emb (ix2 r k))
      = (V c main_arg0 : FVec Ideal S524288x1 .f32) (ix2 ((((cfg0.win 2).blk t).view.emb (ix2 r q)) 0) k) :=
    congrArg (V c main_arg0 : FVec Ideal S524288x1 .f32) h0
  have e1 : (V c main_arg5 : FVec Ideal S1x64 .f32) (((cfg0.win 1).blk t).view.emb (ix2 k q))
      = (V c main_arg5 : FVec Ideal S1x64 .f32) (ix2 k ((((cfg0.win 2).blk t).view.emb (ix2 r q)) 1)) :=
    congrArg (V c main_arg5 : FVec Ideal S1x64 .f32) h1
  exact congrArg₂ (fun a b : Ideal .f32 => a * b) e0 e1

/-- An index of the output array is in point `t`'s block iff each coordinate is in the block's range on its axis. -/
theorem mem_blk0 (t : Fin cfg0.N) (i : S524288x64.Idx) :
    i ∈ ((cfg0.win 2).blk t).view.set ↔ ∀ a : Fin 2, win0_2.index t a * S8192x64.size a ≤ (i a).val ∧ (i a).val < win0_2.index t a * S8192x64.size a + S8192x64.size a := by
  show i ∈ ((View.whole main_v30).slice (win0_2.rect t)).set ↔ _
  rw [View.set_slice_whole, Rect.mem_set_unit]
  exact Iff.rfl

/-- The output's blocks tile the array: row `p` is in the block of point `p / 8192`. -/
theorem cover0 (i : S524288x64.Idx) :
    ∃ t : Fin cfg0.N, (cfg0.win 2).flush t = true ∧ i ∈ ((cfg0.win 2).blk t).view.set := by
  have hi0 : (i 0).val < 524288 := (i 0).isLt
  have hi1 : (i 1).val < 64 := (i 1).isLt
  have hN : grid0.N = 64 := N_0
  obtain ⟨t, ht⟩ : ∃ t : Fin cfg0.N, t.val = (i 0).val / 8192 := ⟨⟨(i 0).val / 8192, by show _ < grid0.N; omega⟩, rfl⟩
  obtain ⟨e00, e01, e10, e11, e20, e21⟩ := idx_facts0 t
  refine ⟨t, flush0_2 t, ?_⟩
  rw [mem_blk0]
  intro a
  match a with
  | ⟨0, _⟩ => show win0_2.index t (0 : Fin 2) * 8192 ≤ (i 0).val ∧ (i 0).val < win0_2.index t (0 : Fin 2) * 8192 + 8192; omega
  | ⟨1, _⟩ => show win0_2.index t (1 : Fin 2) * 64 ≤ (i 1).val ∧ (i 1).val < win0_2.index t (1 : Fin 2) * 64 + 64; omega

/-- The output array after the region: the matrix product of the two arrays the region found. -/
theorem final0 (c : Dev nD) :
    (dat0 (F := Ideal) V c).arrAt 2 cfg0.N = matProd (M := 524288) (K := 1) (N := 64) (V c main_arg0) (V c main_arg5) :=
  (dat0 V c).arrAt_eq_of_cover 2 _ (fun t _ => flushed0 V c t) (cover0)

end Cert.KernelIdeal.RegionValue

end
-- ==== Proof.Region1.lean ====
/-
  The second dense product, `x1 · W2`, read off its pipeline: a grid of 64 points, point `t` staging rows
  `8192 t … 8192 t + 8191` of the `524288 × 64` left operand and the whole `64 × 64` right operand, multiplying them
  into a zero accumulator and writing the `8192 × 64` result back as rows `8192 t …` of the output. As for the first
  product the blocks tile the output and an entry of a product depends on its own row of the left operand only, so the
  output array ends as the matrix product of the arrays the region found.
-/
import proofs.«146187_j45509473468604_1_alg».proof.Proof.Gen.KernelIdeal.Frame
import proofs.«146187_j45509473468604_1_alg».proof.Proof.MatProd
import proofs.«146187_j45509473468604_1_alg».proof.Proof.Region0
import Idealize.ShloMosaic.Lib.Pipeline.Value
import Idealize.ShloMosaic.Lib.ValueIdx

set_option maxRecDepth 16384

noncomputable section

namespace Cert.KernelIdeal.RegionValue

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)
open scoped BigOperators

-- the buffer contents when the region is entered: any
variable (V : (c : Dev nD) → (b : Ref sig .tc) → Buf (Elt Ideal) ((c : Thread nD τ).loc b))

/-- The body's stored value at entry `(r, q)` of the block: the product's sum over the one contracted axis. -/
theorem pay1_apply (x0 : Vec Ideal S8192x64 .f32) (x1 : Vec Ideal S64x64 .f32) (r : Fin 8192) (q : Fin 64) :
    k1_pay1 (F := Ideal) x0 x1 (ix2 r q) = ∑ k : Fin 64, x0 (ix2 r k) * x1 (ix2 k q) := by
  unfold k1_pay1
  refine (Cert.LibPlainDot.matmul_zero_plain (M := 8192) (K := 64) (N := 64) none _ _ r q).trans ?_
  refine Finset.sum_congr rfl fun k _ => ?_
  -- the cast of the left operand to its own shape is the identity
  show shapeCast S8192x64 x0 shapeCasts_S8192x64_S8192x64 (ix2 r k) * x1 (ix2 k q) = _
  rw [shapeCast_self]

/-- The printed index maps over the grid: point `t` is at row block `t` of the left operand and of the output, and at
    the one block of the right operand. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the matrix product of the two arrays as the region finds them. -/
theorem flushed1 (c : Dev nD) (t : Fin cfg1.N) :
    (dat1 (F := Ideal) V c).flushed 2 t = ((cfg1.win 2).blk t).view.read (Elt Ideal)
      (matProd (M := 524288) (K := 64) (N := 64) (V c main_v47) (V c main_arg7)) := by
  show (cfg1.win 2).cut (grid1.coords t) ((dat1 V c).after 2 t) = _
  rw [after1_2]
  unfold out1_2
  rw [View.canon_unit_zero zero_off2]
  simp only [View.ld_unit_zero (S := S8192x64) zero_off2, View.ld_unit_zero (S := S64x64) zero_off2]
  obtain ⟨e00, e01, e10, e11, e20, e21⟩ := idx_facts1 t
  funext j
  obtain ⟨r, q, rfl⟩ : ∃ (r : Fin 8192) (q : Fin 64), j = ix2 r q := ⟨j 0, j 1, eq_ix2 j⟩
  show k1_pay1 (iblk1 V c 0 t) (iblk1 V c 1 t) (ix2 r q) = matProd (M := 524288) (K := 64) (N := 64) (V c main_v47) (V c main_arg7) (((cfg1.win 2).blk t).view.emb (ix2 r q))
  refine (pay1_apply (iblk1 V c 0 t) (iblk1 V c 1 t) r q).trans ?_
  refine Finset.sum_congr rfl fun k _ => ?_
  -- the input blocks' entries sit in the arrays where the output block's rectangle says
  have h0 : ((cfg1.win 0).blk t).view.emb (ix2 r k) = ix2 ((((cfg1.win 2).blk t).view.emb (ix2 r q)) 0) k := by
    funext a; apply Fin.ext
    match a with
    | ⟨0, _⟩ => show win1_0.index t (0 : Fin 2) * 8192 + 1 * r.val = win1_2.index t (0 : Fin 2) * 8192 + 1 * r.val; omega
    | ⟨1, _⟩ => show win1_0.index t (1 : Fin 2) * 64 + 1 * k.val = k.val; omega
  have h1 : ((cfg1.win 1).blk t).view.emb (ix2 k q) = ix2 k ((((cfg1.win 2).blk t).view.emb (ix2 r q)) 1) := by
    funext a; apply Fin.ext
    match a with
    | ⟨0, _⟩ => show win1_1.index t (0 : Fin 2) * 64 + 1 * k.val = k.val; omega
    | ⟨1, _⟩ => show win1_1.index t (1 : Fin 2) * 64 + 1 * q.val = win1_2.index t (1 : Fin 2) * 64 + 1 * q.val; omega
  have e0 : (V c main_v47 : FVec Ideal S524288x64 .f32) (((cfg1.win 0).blk t).view.emb (ix2 r k))
      = (V c main_v47 : FVec Ideal S524288x64 .f32) (ix2 ((((cfg1.win 2).blk t).view.emb (ix2 r q)) 0) k) :=
    congrArg (V c main_v47 : FVec Ideal S524288x64 .f32) h0
  have e1 : (V c main_arg7 : FVec Ideal S64x64 .f32) (((cfg1.win 1).blk t).view.emb (ix2 k q))
      = (V c main_arg7 : FVec Ideal S64x64 .f32) (ix2 k ((((cfg1.win 2).blk t).view.emb (ix2 r q)) 1)) :=
    congrArg (V c main_arg7 : FVec Ideal S64x64 .f32) h1
  exact congrArg₂ (fun a b : Ideal .f32 => a * b) e0 e1

/-- An index of the output array is in point `t`'s block iff each coordinate is in the block's range on its axis. -/
theorem mem_blk1 (t : Fin cfg1.N) (i : S524288x64.Idx) :
    i ∈ ((cfg1.win 2).blk t).view.set ↔ ∀ a : Fin 2, win1_2.index t a * S8192x64.size a ≤ (i a).val ∧ (i a).val < win1_2.index t a * S8192x64.size a + S8192x64.size a := by
  show i ∈ ((View.whole main_v48).slice (win1_2.rect t)).set ↔ _
  rw [View.set_slice_whole, Rect.mem_set_unit]
  exact Iff.rfl

/-- The output's blocks tile the array: row `p` is in the block of point `p / 8192`. -/
theorem cover1 (i : S524288x64.Idx) :
    ∃ t : Fin cfg1.N, (cfg1.win 2).flush t = true ∧ i ∈ ((cfg1.win 2).blk t).view.set := by
  have hi0 : (i 0).val < 524288 := (i 0).isLt
  have hi1 : (i 1).val < 64 := (i 1).isLt
  have hN : grid1.N = 64 := N_1
  obtain ⟨t, ht⟩ : ∃ t : Fin cfg1.N, t.val = (i 0).val / 8192 := ⟨⟨(i 0).val / 8192, by show _ < grid1.N; omega⟩, rfl⟩
  obtain ⟨e00, e01, e10, e11, e20, e21⟩ := idx_facts1 t
  refine ⟨t, flush1_2 t, ?_⟩
  rw [mem_blk1]
  intro a
  match a with
  | ⟨0, _⟩ => show win1_2.index t (0 : Fin 2) * 8192 ≤ (i 0).val ∧ (i 0).val < win1_2.index t (0 : Fin 2) * 8192 + 8192; omega
  | ⟨1, _⟩ => show win1_2.index t (1 : Fin 2) * 64 ≤ (i 1).val ∧ (i 1).val < win1_2.index t (1 : Fin 2) * 64 + 64; omega

/-- The output array after the region: the matrix product of the two arrays the region found. -/
theorem final1 (c : Dev nD) :
    (dat1 (F := Ideal) V c).arrAt 2 cfg1.N = matProd (M := 524288) (K := 64) (N := 64) (V c main_v47) (V c main_arg7) :=
  (dat1 V c).arrAt_eq_of_cover 2 _ (fun t _ => flushed1 V c t) (cover1)

end Cert.KernelIdeal.RegionValue

end
-- ==== Proof.Region2.lean ====
/-
  The graph embedding `pooled · Wg + bg`, read off its pipeline: a grid of 2 points, point `t` staging rows
  `8192 t … 8192 t + 8191` of the `16384 × 64` left operand, the whole `64 × 128` right operand and the whole bias row,
  multiplying into a zero accumulator, adding the bias row to every row, and writing the `8192 × 128` result back as rows
  `8192 t …` of the output. The blocks tile the output and an entry depends on its own row of the left operand only, so
  the output array ends as the biased product of the arrays the region found.
-/
import proofs.«146187_j45509473468604_1_alg».proof.Proof.Gen.KernelIdeal.Frame
import proofs.«146187_j45509473468604_1_alg».proof.Proof.MatProd
import proofs.«146187_j45509473468604_1_alg».proof.Proof.Region0
import proofs.«146187_j45509473468604_1_alg».proof.Proof.Bias
import Idealize.ShloMosaic.Lib.ValueLayout
import Idealize.ShloMosaic.Lib.Pipeline.Value
import Idealize.ShloMosaic.Lib.ValueIdx

set_option maxRecDepth 16384

noncomputable section

namespace Cert.KernelIdeal.RegionValue

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)
open scoped BigOperators

-- the buffer contents when the region is entered: any
variable (V : (c : Dev nD) → (b : Ref sig .tc) → Buf (Elt Ideal) ((c : Thread nD τ).loc b))

theorem zero_off1 : (![0] : Fin 1 → Nat) = fun _ => 0 := funext fun a => by fin_cases a; rfl

/-- The body's stored value at entry `(r, q)` of the block: the product's sum over the contracted axis, plus the bias at
    column `q` (the bias row is cast to `[1, 128]` and broadcast over the rows). -/
theorem pay2_apply (x0 : Vec Ideal S8192x64 .f32) (x1 : Vec Ideal S64x128 .f32) (x2 : Vec Ideal S128 .f32)
    (r : Fin 8192) (q : Fin 128) :
    k2_pay1 (F := Ideal) x0 x1 x2 (ix2 r q) = (∑ k : Fin 64, x0 (ix2 r k) * x1 (ix2 k q)) + x2 (ix1 q) := by
  unfold k2_pay1
  refine congrArg₂ (fun a b : Ideal .f32 => a + b) ?_ ?_
  · refine (Cert.LibPlainDot.matmul_zero_plain (M := 8192) (K := 64) (N := 128) none _ _ r q).trans ?_
    refine Finset.sum_congr rfl fun k _ => ?_
    -- the cast of the left operand to its own shape is the identity
    show shapeCast S8192x64 x0 shapeCasts_S8192x64_S8192x64 (ix2 r k) * x1 (ix2 k q) = _
    rw [shapeCast_self]
  · exact (broadcastTo_1b_ab_apply (a := 8192) (b := 128) _ _ r q).trans (shapeCast_a_1a_apply (a := 128) x2 _ 0 q)

/-- The printed index maps over the grid: point `t` is at row block `t` of the left operand and of the output, and at
    the one block of the right operand and of the bias row. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- What point `t` writes back is block `t` of the biased product of the three arrays as the region finds them. -/
theorem flushed2 (c : Dev nD) (t : Fin cfg2.N) :
    (dat2 (F := Ideal) V c).flushed 3 t = ((cfg2.win 3).blk t).view.read (Elt Ideal)
      (biasedProd (M := 16384) (K := 64) (N := 128) (V c main_v77) (V c main_arg9) (V c main_arg10)) := by
  show (cfg2.win 3).cut (grid2.coords t) ((dat2 V c).after 3 t) = _
  rw [after2_3]
  unfold out2_3
  rw [View.canon_unit_zero zero_off2]
  simp only [View.ld_unit_zero (S := S8192x64) zero_off2, View.ld_unit_zero (S := S64x128) zero_off2,
    View.ld_unit_zero (S := S128) zero_off1]
  obtain ⟨e00, e01, e10, e11, e20, e30, e31⟩ := idx_facts2 t
  funext j
  obtain ⟨r, q, rfl⟩ : ∃ (r : Fin 8192) (q : Fin 128), j = ix2 r q := ⟨j 0, j 1, eq_ix2 j⟩
  show k2_pay1 (iblk2 V c 0 t) (iblk2 V c 1 t) (iblk2 V c 2 t) (ix2 r q) = biasedProd (M := 16384) (K := 64) (N := 128) (V c main_v77) (V c main_arg9) (V c main_arg10) (((cfg2.win 3).blk t).view.emb (ix2 r q))
  refine (pay2_apply (iblk2 V c 0 t) (iblk2 V c 1 t) (iblk2 V c 2 t) r q).trans ?_
  -- the input blocks' entries sit in the arrays where the output block's rectangle says
  have h2 : ((cfg2.win 2).blk t).view.emb (ix1 q) = ix1 ((((cfg2.win 3).blk t).view.emb (ix2 r q)) 1) := by
    funext a; apply Fin.ext
    match a with
    | ⟨0, _⟩ => show win2_2.index t (0 : Fin 1) * 128 + 1 * q.val = win2_3.index t (1 : Fin 2) * 128 + 1 * q.val; omega
  refine congrArg₂ (fun a b : Ideal .f32 => a + b) ?_ (congrArg (V c main_arg10 : FVec Ideal S128 .f32) h2)
  refine Finset.sum_congr rfl fun k _ => ?_
  have h0 : ((cfg2.win 0).blk t).view.emb (ix2 r k) = ix2 ((((cfg2.win 3).blk t).view.emb (ix2 r q)) 0) k := by
    funext a; apply Fin.ext
    match a with
    | ⟨0, _⟩ => show win2_0.index t (0 : Fin 2) * 8192 + 1 * r.val = win2_3.index t (0 : Fin 2) * 8192 + 1 * r.val; omega
    | ⟨1, _⟩ => show win2_0.index t (1 : Fin 2) * 64 + 1 * k.val = k.val; omega
  have h1 : ((cfg2.win 1).blk t).view.emb (ix2 k q) = ix2 k ((((cfg2.win 3).blk t).view.emb (ix2 r q)) 1) := by
    funext a; apply Fin.ext
    match a with
    | ⟨0, _⟩ => show win2_1.index t (0 : Fin 2) * 64 + 1 * k.val = k.val; omega
    | ⟨1, _⟩ => show win2_1.index t (1 : Fin 2) * 128 + 1 * q.val = win2_3.index t (1 : Fin 2) * 128 + 1 * q.val; omega
  exact congrArg₂ (fun a b : Ideal .f32 => a * b) (congrArg (V c main_v77 : FVec Ideal S16384x64 .f32) h0)
    (congrArg (V c main_arg9 : FVec Ideal S64x128 .f32) h1)

/-- An index of the output array is in point `t`'s block iff each coordinate is in the block's range on its axis. -/
theorem mem_blk2 (t : Fin cfg2.N) (i : S16384x128.Idx) :
    i ∈ ((cfg2.win 3).blk t).view.set ↔ ∀ a : Fin 2, win2_3.index t a * S8192x128.size a ≤ (i a).val ∧ (i a).val < win2_3.index t a * S8192x128.size a + S8192x128.size a := by
  show i ∈ ((View.whole main_v78).slice (win2_3.rect t)).set ↔ _
  rw [View.set_slice_whole, Rect.mem_set_unit]
  exact Iff.rfl

/-- The output's blocks tile the array: row `p` is in the block of point `p / 8192`. -/
theorem cover2 (i : S16384x128.Idx) :
    ∃ t : Fin cfg2.N, (cfg2.win 3).flush t = true ∧ i ∈ ((cfg2.win 3).blk t).view.set := by
  have hi0 : (i 0).val < 16384 := (i 0).isLt
  have hi1 : (i 1).val < 128 := (i 1).isLt
  have hN : grid2.N = 2 := N_2
  obtain ⟨t, ht⟩ : ∃ t : Fin cfg2.N, t.val = (i 0).val / 8192 := ⟨⟨(i 0).val / 8192, by show _ < grid2.N; omega⟩, rfl⟩
  obtain ⟨e00, e01, e10, e11, e20, e30, e31⟩ := idx_facts2 t
  refine ⟨t, flush2_3 t, ?_⟩
  rw [mem_blk2]
  intro a
  match a with
  | ⟨0, _⟩ => show win2_3.index t (0 : Fin 2) * 8192 ≤ (i 0).val ∧ (i 0).val < win2_3.index t (0 : Fin 2) * 8192 + 8192; omega
  | ⟨1, _⟩ => show win2_3.index t (1 : Fin 2) * 128 ≤ (i 1).val ∧ (i 1).val < win2_3.index t (1 : Fin 2) * 128 + 128; omega

/-- The output array after the region: the biased product of the three arrays the region found. -/
theorem final2 (c : Dev nD) :
    (dat2 (F := Ideal) V c).arrAt 3 cfg2.N
      = biasedProd (M := 16384) (K := 64) (N := 128) (V c main_v77) (V c main_arg9) (V c main_arg10) :=
  (dat2 V c).arrAt_eq_of_cover 3 _ (fun t _ => flushed2 V c t) (cover2)

end Cert.KernelIdeal.RegionValue

end
-- ==== Proof.Head.lean ====
/-
  The head of the network, read off its pipeline and off the reference's chain of host operations.

  The last region runs on a grid of 32 points; point `t` stages rows `512 t … 512 t + 511` of the graph embedding
  `g` (`16384 × 128`), of the compound features `cf` (`16384 × 3539`) and of the protein features `pf`
  (`16384 × 384`), and the whole of the weights `wg`, `wc`, `wp`, `w2` and of the biases `b1`, `b2`, and writes rows
  `512 t …` of the `16384 × 1` output:
      out (p, 0) = 1 / (1 + exp (-( ∑ j, max (((∑ k, g (p,k) wg (k,j)) + (∑ k, cf (p,k) wc (k,j))) + (∑ k, pf (p,k) wp (k,j)) + b1 j) 0 * w2 (j,0) + b2 0 ))).
  An entry of this function depends on its own row of `g`, `cf`, `pf` only, so block `t` of the function of the whole
  arrays is the function of the blocks; the blocks tile the output, so the output array ends as this function of the
  arrays the region found (`final3`).

  The reference joins `[g | cf | pf]` along the columns into a `16384 × 4051` array and takes one product with a
  `4051 × 256` weight array whose rows `0 … 127`, `128 … 3666`, `3667 … 4050` are `wg`, `wc`, `wp`. A sum over
  `4051 = 128 + 3539 + 384` indices is the sum of the sums over the three ranges (associativity of `+` on the extended
  reals: no finiteness is needed), which is the kernel's order of additions; and `0 - x = -x` (`headR_eq`).
-/
import proofs.«146187_j45509473468604_1_alg».proof.Proof.Gen.KernelIdeal.Frame
import proofs.«146187_j45509473468604_1_alg».proof.Proof.Gen.ReferenceIdeal
import proofs.«146187_j45509473468604_1_alg».proof.Proof.MatProd
import proofs.«146187_j45509473468604_1_alg».proof.Proof.Chains
import Idealize.ShloMosaic.Lib.Pipeline.Value
import Idealize.ShloMosaic.Lib.ValueIdx
import Idealize.ShloMosaic.Lib.ValueLayout

set_option maxRecDepth 16384

noncomputable section

namespace Cert.Spec

open Idealize.ShloMosaic Idealize.ShloMosaic.ValueIdx
open scoped BigOperators

/-- The hidden layer of the head on `M` rows: entry `(p, j)` is
    `max (((∑ k, g (p,k) wg (k,j)) + (∑ k, cf (p,k) wc (k,j))) + (∑ k, pf (p,k) wp (k,j)) + b1 j) 0`. -/
def headHidden {M : Nat} (g : FVec Ideal ⟨2, ![M, 128]⟩ .f32) (cf : FVec Ideal ⟨2, ![M, 3539]⟩ .f32)
    (pf : FVec Ideal ⟨2, ![M, 384]⟩ .f32) (wg : FVec Ideal ⟨2, ![128, 256]⟩ .f32) (wc : FVec Ideal ⟨2, ![3539, 256]⟩ .f32)
    (wp : FVec Ideal ⟨2, ![384, 256]⟩ .f32) (b1 : FVec Ideal ⟨1, ![256]⟩ .f32) : FVec Ideal ⟨2, ![M, 256]⟩ .f32 :=
  fun i => max (((matProd g wg i + matProd cf wc i) + matProd pf wp i) + b1 (ix1 (i 1))) 0

theorem headHidden_apply {M : Nat} (g : FVec Ideal ⟨2, ![M, 128]⟩ .f32) (cf : FVec Ideal ⟨2, ![M, 3539]⟩ .f32)
    (pf : FVec Ideal ⟨2, ![M, 384]⟩ .f32) (wg : FVec Ideal ⟨2, ![128, 256]⟩ .f32) (wc : FVec Ideal ⟨2, ![3539, 256]⟩ .f32)
    (wp : FVec Ideal ⟨2, ![384, 256]⟩ .f32) (b1 : FVec Ideal ⟨1, ![256]⟩ .f32) (p : Fin M) (j : Fin 256) :
    headHidden g cf pf wg wc wp b1 (ix2 p j)
      = max ((((∑ k : Fin 128, g (ix2 p k) * wg (ix2 k j)) + (∑ k : Fin 3539, cf (ix2 p k) * wc (ix2 k j)))
          + (∑ k : Fin 384, pf (ix2 p k) * wp (ix2 k j))) + b1 (ix1 j)) 0 := rfl

/-- The head on `M` rows: entry `(p, q)` is `1 / (1 + exp (-((∑ j, hidden (p,j) w2 (j,q)) + b2 0)))`. -/
def headOutM {M : Nat} (g : FVec Ideal ⟨2, ![M, 128]⟩ .f32) (cf : FVec Ideal ⟨2, ![M, 3539]⟩ .f32)
    (pf : FVec Ideal ⟨2, ![M, 384]⟩ .f32) (wg : FVec Ideal ⟨2, ![128, 256]⟩ .f32) (wc : FVec Ideal ⟨2, ![3539, 256]⟩ .f32)
    (wp : FVec Ideal ⟨2, ![384, 256]⟩ .f32) (b1 : FVec Ideal ⟨1, ![256]⟩ .f32) (w2 : FVec Ideal ⟨2, ![256, 1]⟩ .f32)
    (b2 : FVec Ideal ⟨1, ![1]⟩ .f32) : FVec Ideal ⟨2, ![M, 1]⟩ .f32 :=
  fun i => Ideal.div (Ideal.ofBits .f32 0x3F800000#32)
    (Ideal.ofBits .f32 0x3F800000#32 + Ideal.exp (-(matProd (headHidden g cf pf wg wc wp b1) w2 i + b2 (ix1 0))))

/-- The head of the network on the 16384 rows. -/
def headOut (g : FVec Ideal ⟨2, ![16384, 128]⟩ .f32) (cf : FVec Ideal ⟨2, ![16384, 3539]⟩ .f32)
    (pf : FVec Ideal ⟨2, ![16384, 384]⟩ .f32) (wg : FVec Ideal ⟨2, ![128, 256]⟩ .f32) (wc : FVec Ideal ⟨2, ![3539, 256]⟩ .f32)
    (wp : FVec Ideal ⟨2, ![384, 256]⟩ .f32) (b1 : FVec Ideal ⟨1, ![256]⟩ .f32) (w2 : FVec Ideal ⟨2, ![256, 1]⟩ .f32)
    (b2 : FVec Ideal ⟨1, ![1]⟩ .f32) : FVec Ideal ⟨2, ![16384, 1]⟩ .f32 :=
  headOutM g cf pf wg wc wp b1 w2 b2

end Cert.Spec

namespace Cert.KernelIdeal.RegionValue

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

theorem pay3_tail_apply (y : FVec Ideal S512x1 .f32) (i : S512x1.Idx) :
    k3_pay1 (F := Ideal) y i = Ideal.div (Ideal.ofBits .f32 0x3F800000#32) (Ideal.ofBits .f32 0x3F800000#32 + Ideal.exp (y i)) := rfl

theorem pay3_hid_apply (x0 : Vec Ideal S512x128 .f32) (x1 : Vec Ideal S512x3539 .f32) (x2 : Vec Ideal S512x384 .f32)
    (x3 : Vec Ideal S128x256 .f32) (x4 : Vec Ideal S3539x256 .f32) (x5 : Vec Ideal S384x256 .f32) (x6 : Vec Ideal S256 .f32)
    (x7 : Vec Ideal S256x1 .f32) (x8 : Vec Ideal S1 .f32) (r : Fin 512) (q : Fin 1) :
    k3_pay2 (F := Ideal) x0 x1 x2 x3 x4 x5 x6 x7 x8 (ix2 r q) = -(matProd (headHidden (M := 512) x0 x1 x2 x3 x4 x5 x6) x7 (ix2 r q) + x8 (ix1 0)) := by
  obtain rfl : q = 0 := Subsingleton.elim _ _
  unfold k3_pay2
  simp only [shapeCast_self]
  show Ideal.ofBits .f32 0x00000000#32 - (FloatOps.matmul _ none _ _ _ (ix2 r 0)
    + broadcastTo S512x1 (shapeCast S1x1 x8 shapeCasts_S1_S1x1) broadcasts_S1x1_S512x1 (ix2 r 0)) = _
  rw [Ideal.ofBits_zero_f32, zero_sub]
  refine congrArg Neg.neg (congrArg₂ (· + ·) ?_ ?_)
  · refine (Cert.LibPlainDot.matmul_zero_plain (M := 512) (K := 256) (N := 1) none _ _ r 0).trans ?_
    refine Finset.sum_congr rfl fun j _ => ?_
    refine congrArg (· * (x7 (ix2 j 0) : Ideal .f32)) ?_
    show max ((((FloatOps.matmul (F := Ideal) _ none _ _ _ (ix2 r j) : Ideal .f32) + (FloatOps.matmul (F := Ideal) _ none _ _ _ (ix2 r j) : Ideal .f32)) + (FloatOps.matmul (F := Ideal) _ none _ _ _ (ix2 r j) : Ideal .f32))
      + broadcastTo S512x256 (shapeCast S1x256 x6 shapeCasts_S256_S1x256) broadcasts_S1x256_S512x256 (ix2 r j)) (Ideal.ofBits .f32 0x00000000#32) = _
    rw [Ideal.ofBits_zero_f32, headHidden_apply]
    refine congrArg (max · (0 : EReal)) (congrArg₂ (· + ·) (congrArg₂ (· + ·) (congrArg₂ (· + ·) ?_ ?_) ?_) ?_)
    · exact Cert.LibPlainDot.matmul_zero_plain (M := 512) (K := 128) (N := 256) none _ _ r j
    · exact Cert.LibPlainDot.matmul_zero_plain (M := 512) (K := 3539) (N := 256) none _ _ r j
    · exact Cert.LibPlainDot.matmul_zero_plain (M := 512) (K := 384) (N := 256) none _ _ r j
    · exact (broadcastTo_1b_ab_apply _ _ r j).trans (shapeCast_a_1a_apply x6 _ 0 j)
  · exact (broadcastTo_1b_ab_apply _ _ r 0).trans (shapeCast_a_1a_apply x8 _ 0 0)

/-- The body's stored value at entry `(r, q)` of the block: the head on the 512 rows of the staged blocks. -/
theorem pay3_apply (x0 : Vec Ideal S512x128 .f32) (x1 : Vec Ideal S512x3539 .f32) (x2 : Vec Ideal S512x384 .f32)
    (x3 : Vec Ideal S128x256 .f32) (x4 : Vec Ideal S3539x256 .f32) (x5 : Vec Ideal S384x256 .f32) (x6 : Vec Ideal S256 .f32)
    (x7 : Vec Ideal S256x1 .f32) (x8 : Vec Ideal S1 .f32) (r : Fin 512) (q : Fin 1) :
    k3_pay1 (F := Ideal) (k3_pay2 x0 x1 x2 x3 x4 x5 x6 x7 x8) (ix2 r q) = headOutM (M := 512) x0 x1 x2 x3 x4 x5 x6 x7 x8 (ix2 r q) := by
  rw [pay3_tail_apply, pay3_hid_apply]
  rfl

theorem head_zero_off2 : (![0, 0] : Fin 2 → Nat) = fun _ => 0 := funext fun a => by fin_cases a <;> rfl
theorem head_zero_off1 : (![0] : Fin 1 → Nat) = fun _ => 0 := funext fun a => by fin_cases a; rfl

/-- An entry of the head depends on its own row of the three row-blocked arrays only (and on the weights and biases):
    two families of arrays that agree on those agree at the entry. -/
theorem headOutM_congr {M M' : Nat}
    (g : FVec Ideal ⟨2, ![M, 128]⟩ .f32) (cf : FVec Ideal ⟨2, ![M, 3539]⟩ .f32) (pf : FVec Ideal ⟨2, ![M, 384]⟩ .f32)
    (wg : FVec Ideal ⟨2, ![128, 256]⟩ .f32) (wc : FVec Ideal ⟨2, ![3539, 256]⟩ .f32) (wp : FVec Ideal ⟨2, ![384, 256]⟩ .f32)
    (b1 : FVec Ideal ⟨1, ![256]⟩ .f32) (w2 : FVec Ideal ⟨2, ![256, 1]⟩ .f32) (b2 : FVec Ideal ⟨1, ![1]⟩ .f32)
    (g' : FVec Ideal ⟨2, ![M', 128]⟩ .f32) (cf' : FVec Ideal ⟨2, ![M', 3539]⟩ .f32) (pf' : FVec Ideal ⟨2, ![M', 384]⟩ .f32)
    (wg' : FVec Ideal ⟨2, ![128, 256]⟩ .f32) (wc' : FVec Ideal ⟨2, ![3539, 256]⟩ .f32) (wp' : FVec Ideal ⟨2, ![384, 256]⟩ .f32)
    (b1' : FVec Ideal ⟨1, ![256]⟩ .f32) (w2' : FVec Ideal ⟨2, ![256, 1]⟩ .f32) (b2' : FVec Ideal ⟨1, ![1]⟩ .f32)
    (p : Fin M) (p' : Fin M') (q q' : Fin 1)
    (hg : ∀ k, g (ix2 p k) = g' (ix2 p' k)) (hcf : ∀ k, cf (ix2 p k) = cf' (ix2 p' k)) (hpf : ∀ k, pf (ix2 p k) = pf' (ix2 p' k))
    (hwg : ∀ k j, wg (ix2 k j) = wg' (ix2 k j)) (hwc : ∀ k j, wc (ix2 k j) = wc' (ix2 k j)) (hwp : ∀ k j, wp (ix2 k j) = wp' (ix2 k j))
    (hb1 : ∀ j, b1 (ix1 j) = b1' (ix1 j)) (hw2 : ∀ j, w2 (ix2 j q) = w2' (ix2 j q')) (hb2 : b2 (ix1 0) = b2' (ix1 0)) :
    headOutM g cf pf wg wc wp b1 w2 b2 (ix2 p q) = headOutM g' cf' pf' wg' wc' wp' b1' w2' b2' (ix2 p' q') := by
  unfold headOutM
  simp only [matProd_apply, headHidden_apply, hg, hcf, hpf, hwg, hwc, hwp, hb1, hw2, hb2]

/-- The printed index maps over the grid: point `t` is at row block `t` of the three row-blocked inputs and of the
    output, and at the one block of each weight and bias. -/
theorem idx_facts3 : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = t.val ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ win3_6.index t (0 : Fin 1) = 0
    ∧ (win3_7.index t (0 : Fin 2) = 0 ∧ win3_7.index t (1 : Fin 2) = 0)
    ∧ win3_8.index t (0 : Fin 1) = 0
    ∧ (win3_9.index t (0 : Fin 2) = t.val ∧ win3_9.index t (1 : Fin 2) = 0) :=
  (by decide +kernel : ∀ t : Fin grid3.N, _)

/-! The input blocks' entries sit in the arrays where the output block's rectangle says: the row-blocked inputs at the
    output entry's row, the weights and biases at their own indices. -/

theorem emb3_0 (t : Fin cfg3.N) (r : Fin 512) (q : Fin 1) (k : Fin 128) :
    ((cfg3.win 0).blk t).view.emb (ix2 r k) = ix2 ((((cfg3.win 9).blk t).view.emb (ix2 r q)) 0) k := by
  obtain ⟨⟨e00, e01⟩, -, -, -, -, -, -, -, -, ⟨e90, e91⟩⟩ := idx_facts3 t
  funext a; apply Fin.ext
  match a with
  | ⟨0, _⟩ => show win3_0.index t (0 : Fin 2) * 512 + 1 * r.val = win3_9.index t (0 : Fin 2) * 512 + 1 * r.val; omega
  | ⟨1, _⟩ => show win3_0.index t (1 : Fin 2) * 128 + 1 * k.val = k.val; omega

theorem emb3_1 (t : Fin cfg3.N) (r : Fin 512) (q : Fin 1) (k : Fin 3539) :
    ((cfg3.win 1).blk t).view.emb (ix2 r k) = ix2 ((((cfg3.win 9).blk t).view.emb (ix2 r q)) 0) k := by
  obtain ⟨-, ⟨e10, e11⟩, -, -, -, -, -, -, -, ⟨e90, e91⟩⟩ := idx_facts3 t
  funext a; apply Fin.ext
  match a with
  | ⟨0, _⟩ => show win3_1.index t (0 : Fin 2) * 512 + 1 * r.val = win3_9.index t (0 : Fin 2) * 512 + 1 * r.val; omega
  | ⟨1, _⟩ => show win3_1.index t (1 : Fin 2) * 3539 + 1 * k.val = k.val; omega

theorem emb3_2 (t : Fin cfg3.N) (r : Fin 512) (q : Fin 1) (k : Fin 384) :
    ((cfg3.win 2).blk t).view.emb (ix2 r k) = ix2 ((((cfg3.win 9).blk t).view.emb (ix2 r q)) 0) k := by
  obtain ⟨-, -, ⟨e20, e21⟩, -, -, -, -, -, -, ⟨e90, e91⟩⟩ := idx_facts3 t
  funext a; apply Fin.ext
  match a with
  | ⟨0, _⟩ => show win3_2.index t (0 : Fin 2) * 512 + 1 * r.val = win3_9.index t (0 : Fin 2) * 512 + 1 * r.val; omega
  | ⟨1, _⟩ => show win3_2.index t (1 : Fin 2) * 384 + 1 * k.val = k.val; omega

theorem emb3_3 (t : Fin cfg3.N) (k : Fin 128) (j : Fin 256) : ((cfg3.win 3).blk t).view.emb (ix2 k j) = ix2 k j := by
  obtain ⟨-, -, -, ⟨e30, e31⟩, -, -, -, -, -, -⟩ := idx_facts3 t
  funext a; apply Fin.ext
  match a with
  | ⟨0, _⟩ => show win3_3.index t (0 : Fin 2) * 128 + 1 * k.val = k.val; omega
  | ⟨1, _⟩ => show win3_3.index t (1 : Fin 2) * 256 + 1 * j.val = j.val; omega

theorem emb3_4 (t : Fin cfg3.N) (k : Fin 3539) (j : Fin 256) : ((cfg3.win 4).blk t).view.emb (ix2 k j) = ix2 k j := by
  obtain ⟨-, -, -, -, ⟨e40, e41⟩, -, -, -, -, -⟩ := idx_facts3 t
  funext a; apply Fin.ext
  match a with
  | ⟨0, _⟩ => show win3_4.index t (0 : Fin 2) * 3539 + 1 * k.val = k.val; omega
  | ⟨1, _⟩ => show win3_4.index t (1 : Fin 2) * 256 + 1 * j.val = j.val; omega

theorem emb3_5 (t : Fin cfg3.N) (k : Fin 384) (j : Fin 256) : ((cfg3.win 5).blk t).view.emb (ix2 k j) = ix2 k j := by
  obtain ⟨-, -, -, -, -, ⟨e50, e51⟩, -, -, -, -⟩ := idx_facts3 t
  funext a; apply Fin.ext
  match a with
  | ⟨0, _⟩ => show win3_5.index t (0 : Fin 2) * 384 + 1 * k.val = k.val; omega
  | ⟨1, _⟩ => show win3_5.index t (1 : Fin 2) * 256 + 1 * j.val = j.val; omega

theorem emb3_6 (t : Fin cfg3.N) (j : Fin 256) : ((cfg3.win 6).blk t).view.emb (ix1 j) = ix1 j := by
  obtain ⟨-, -, -, -, -, -, e60, -, -, -⟩ := idx_facts3 t
  funext a; apply Fin.ext
  match a with
  | ⟨0, _⟩ => show win3_6.index t (0 : Fin 1) * 256 + 1 * j.val = j.val; omega

theorem emb3_7 (t : Fin cfg3.N) (r : Fin 512) (q : Fin 1) (j : Fin 256) :
    ((cfg3.win 7).blk t).view.emb (ix2 j q) = ix2 j ((((cfg3.win 9).blk t).view.emb (ix2 r q)) 1) := by
  obtain ⟨-, -, -, -, -, -, -, ⟨e70, e71⟩, -, ⟨e90, e91⟩⟩ := idx_facts3 t
  funext a; apply Fin.ext
  match a with
  | ⟨0, _⟩ => show win3_7.index t (0 : Fin 2) * 256 + 1 * j.val = j.val; omega
  | ⟨1, _⟩ => show win3_7.index t (1 : Fin 2) * 1 + 1 * q.val = win3_9.index t (1 : Fin 2) * 1 + 1 * q.val; omega

theorem emb3_8 (t : Fin cfg3.N) : ((cfg3.win 8).blk t).view.emb (ix1 (0 : Fin 1)) = ix1 0 := by
  obtain ⟨-, -, -, -, -, -, -, -, e80, -⟩ := idx_facts3 t
  funext a; apply Fin.ext
  match a with
  | ⟨0, _⟩ => show win3_8.index t (0 : Fin 1) * 1 + 1 * 0 = 0; omega

/-! The staged blocks read at an entry, as the arrays the region finds read where the output block's rectangle says. -/

theorem blk3_0 (c : Dev nD) (t : Fin cfg3.N) (r : Fin 512) (q : Fin 1) (k : Fin 128) :
    iblk3 (F := Ideal) V c 0 t (ix2 r k) = (V c main_v78 : FVec Ideal S16384x128 .f32) (ix2 ((((cfg3.win 9).blk t).view.emb (ix2 r q)) 0) k) :=
  congrArg (V c main_v78 : FVec Ideal S16384x128 .f32) (emb3_0 t r q k)
theorem blk3_1 (c : Dev nD) (t : Fin cfg3.N) (r : Fin 512) (q : Fin 1) (k : Fin 3539) :
    iblk3 (F := Ideal) V c 1 t (ix2 r k) = (V c main_arg1 : FVec Ideal S16384x3539 .f32) (ix2 ((((cfg3.win 9).blk t).view.emb (ix2 r q)) 0) k) :=
  congrArg (V c main_arg1 : FVec Ideal S16384x3539 .f32) (emb3_1 t r q k)
theorem blk3_2 (c : Dev nD) (t : Fin cfg3.N) (r : Fin 512) (q : Fin 1) (k : Fin 384) :
    iblk3 (F := Ideal) V c 2 t (ix2 r k) = (V c main_arg2 : FVec Ideal S16384x384 .f32) (ix2 ((((cfg3.win 9).blk t).view.emb (ix2 r q)) 0) k) :=
  congrArg (V c main_arg2 : FVec Ideal S16384x384 .f32) (emb3_2 t r q k)
theorem blk3_3 (c : Dev nD) (t : Fin cfg3.N) (k : Fin 128) (j : Fin 256) :
    iblk3 (F := Ideal) V c 3 t (ix2 k j) = (V c main_v79 : FVec Ideal S128x256 .f32) (ix2 k j) :=
  congrArg (V c main_v79 : FVec Ideal S128x256 .f32) (emb3_3 t k j)
theorem blk3_4 (c : Dev nD) (t : Fin cfg3.N) (k : Fin 3539) (j : Fin 256) :
    iblk3 (F := Ideal) V c 4 t (ix2 k j) = (V c main_v80 : FVec Ideal S3539x256 .f32) (ix2 k j) :=
  congrArg (V c main_v80 : FVec Ideal S3539x256 .f32) (emb3_4 t k j)
theorem blk3_5 (c : Dev nD) (t : Fin cfg3.N) (k : Fin 384) (j : Fin 256) :
    iblk3 (F := Ideal) V c 5 t (ix2 k j) = (V c main_v81 : FVec Ideal S384x256 .f32) (ix2 k j) :=
  congrArg (V c main_v81 : FVec Ideal S384x256 .f32) (emb3_5 t k j)
theorem blk3_6 (c : Dev nD) (t : Fin cfg3.N) (j : Fin 256) :
    iblk3 (F := Ideal) V c 6 t (ix1 j) = (V c main_arg12 : FVec Ideal S256 .f32) (ix1 j) :=
  congrArg (V c main_arg12 : FVec Ideal S256 .f32) (emb3_6 t j)
theorem blk3_7 (c : Dev nD) (t : Fin cfg3.N) (r : Fin 512) (q : Fin 1) (j : Fin 256) :
    iblk3 (F := Ideal) V c 7 t (ix2 j q) = (V c main_arg13 : FVec Ideal S256x1 .f32) (ix2 j ((((cfg3.win 9).blk t).view.emb (ix2 r q)) 1)) :=
  congrArg (V c main_arg13 : FVec Ideal S256x1 .f32) (emb3_7 t r q j)
theorem blk3_8 (c : Dev nD) (t : Fin cfg3.N) :
    iblk3 (F := Ideal) V c 8 t (ix1 (0 : Fin 1)) = (V c main_arg14 : FVec Ideal S1 .f32) (ix1 0) :=
  congrArg (V c main_arg14 : FVec Ideal S1 .f32) (emb3_8 t)

/-- What point `t` writes back is block `t` of the head of the arrays as the region finds them. -/
theorem flushed3 (c : Dev nD) (t : Fin cfg3.N) :
    (dat3 (F := Ideal) V c).flushed 9 t = ((cfg3.win 9).blk t).view.read (Elt Ideal)
      (headOut (V c main_v78) (V c main_arg1) (V c main_arg2) (V c main_v79) (V c main_v80) (V c main_v81)
        (V c main_arg12) (V c main_arg13) (V c main_arg14)) := by
  show (cfg3.win 9).cut (grid3.coords t) ((dat3 V c).after 9 t) = _
  rw [after3_9]
  unfold out3_9
  rw [View.canon_unit_zero head_zero_off2]
  simp only [View.ld_unit_zero (S := S512x128) head_zero_off2, View.ld_unit_zero (S := S512x3539) head_zero_off2,
    View.ld_unit_zero (S := S512x384) head_zero_off2, View.ld_unit_zero (S := S128x256) head_zero_off2,
    View.ld_unit_zero (S := S3539x256) head_zero_off2, View.ld_unit_zero (S := S384x256) head_zero_off2,
    View.ld_unit_zero (S := S256) head_zero_off1, View.ld_unit_zero (S := S256x1) head_zero_off2,
    View.ld_unit_zero (S := S1) head_zero_off1]
  funext j
  obtain ⟨r, q, rfl⟩ : ∃ (r : Fin 512) (q : Fin 1), j = ix2 r q := ⟨j 0, j 1, eq_ix2 j⟩
  show k3_pay1 (k3_pay2 (iblk3 V c 0 t) (iblk3 V c 1 t) (iblk3 V c 2 t) (iblk3 V c 3 t) (iblk3 V c 4 t) (iblk3 V c 5 t)
      (iblk3 V c 6 t) (iblk3 V c 7 t) (iblk3 V c 8 t)) (ix2 r q)
    = headOut (V c main_v78) (V c main_arg1) (V c main_arg2) (V c main_v79) (V c main_v80) (V c main_v81)
        (V c main_arg12) (V c main_arg13) (V c main_arg14) (((cfg3.win 9).blk t).view.emb (ix2 r q))
  refine (pay3_apply _ _ _ _ _ _ _ _ _ r q).trans ?_
  refine (headOutM_congr (M := 512) (M' := 16384) _ _ _ _ _ _ _ _ _ _ _ _ _ _ _ _ _ _
      r ((((cfg3.win 9).blk t).view.emb (ix2 r q)) 0) q ((((cfg3.win 9).blk t).view.emb (ix2 r q)) 1)
      (fun k => blk3_0 V c t r q k) (fun k => blk3_1 V c t r q k) (fun k => blk3_2 V c t r q k)
      (fun k j => blk3_3 V c t k j) (fun k j => blk3_4 V c t k j) (fun k j => blk3_5 V c t k j)
      (fun j => blk3_6 V c t j) (fun j => blk3_7 V c t r q j) (blk3_8 V c t)).trans ?_
  exact congrArg (headOut (V c main_v78) (V c main_arg1) (V c main_arg2) (V c main_v79) (V c main_v80) (V c main_v81)
        (V c main_arg12) (V c main_arg13) (V c main_arg14)) (eq_ix2 _).symm

/-- An index of the output array is in point `t`'s block iff each coordinate is in the block's range on its axis. -/
theorem mem_blk3 (t : Fin cfg3.N) (i : S16384x1.Idx) :
    i ∈ ((cfg3.win 9).blk t).view.set ↔ ∀ a : Fin 2, win3_9.index t a * S512x1.size a ≤ (i a).val ∧ (i a).val < win3_9.index t a * S512x1.size a + S512x1.size a := by
  show i ∈ ((View.whole main_v82).slice (win3_9.rect t)).set ↔ _
  rw [View.set_slice_whole, Rect.mem_set_unit]
  exact Iff.rfl

/-- The output's blocks tile the array: row `p` is in the block of point `p / 512`. -/
theorem cover3 (i : S16384x1.Idx) :
    ∃ t : Fin cfg3.N, (cfg3.win 9).flush t = true ∧ i ∈ ((cfg3.win 9).blk t).view.set := by
  have hi0 : (i 0).val < 16384 := (i 0).isLt
  have hi1 : (i 1).val < 1 := (i 1).isLt
  have hN : grid3.N = 32 := N_3
  obtain ⟨t, ht⟩ : ∃ t : Fin cfg3.N, t.val = (i 0).val / 512 := ⟨⟨(i 0).val / 512, by show _ < grid3.N; omega⟩, rfl⟩
  obtain ⟨-, -, -, -, -, -, -, -, -, ⟨e90, e91⟩⟩ := idx_facts3 t
  refine ⟨t, flush3_9 t, ?_⟩
  rw [mem_blk3]
  intro a
  match a with
  | ⟨0, _⟩ => show win3_9.index t (0 : Fin 2) * 512 ≤ (i 0).val ∧ (i 0).val < win3_9.index t (0 : Fin 2) * 512 + 512; omega
  | ⟨1, _⟩ => show win3_9.index t (1 : Fin 2) * 1 ≤ (i 1).val ∧ (i 1).val < win3_9.index t (1 : Fin 2) * 1 + 1; omega

/-- The output array after the region: the head of the arrays the region found. -/
theorem final3 (c : Dev nD) :
    (dat3 (F := Ideal) V c).arrAt 9 cfg3.N = Cert.Spec.headOut (V c main_v78) (V c main_arg1) (V c main_arg2) (V c main_v79)
      (V c main_v80) (V c main_v81) (V c main_arg12) (V c main_arg13) (V c main_arg14) :=
  (dat3 V c).arrAt_eq_of_cover 9 _ (fun t _ => flushed3 V c t) (cover3)

end Cert.KernelIdeal.RegionValue

namespace Cert.HeadLaw

open Cert.ReferenceIdeal Cert.ReferenceIdeal.Facts₀ Cert.ReferenceIdeal.Facts Cert.Spec Cert.Chains
open Idealize.ShloMosaic Idealize.ShloMosaic.TcCoe Idealize.ShloMosaic.ValueIdx
open scoped BigOperators

/-- A sum over `a + b + c` indices is the sum of the sums over the three consecutive ranges. -/
theorem sum_split3 {β : Type} [AddCommMonoid β] (a b c : Nat) (f : Fin (a + b + c) → β) :
    ∑ k, f k = ((∑ k : Fin a, f ⟨k.val, by omega⟩) + (∑ k : Fin b, f ⟨a + k.val, by omega⟩))
      + ∑ k : Fin c, f ⟨a + b + k.val, by omega⟩ := by
  rw [Fin.sum_univ_add, Fin.sum_univ_add]
  rfl

/-- The scalar one broadcast to the output's shape reads the one everywhere. -/
theorem one_apply (i : S16384x1.Idx) :
    broadcastInDim S16384x1 ![] bcast_S_S16384x1 (constant (F := Ideal) S_ .f32 0x3F800000#32) i = Ideal.ofBits .f32 0x3F800000#32 := rfl

/-- The scalar zero broadcast to the hidden layer's shape reads zero everywhere. -/
theorem zero_apply (i : S16384x256.Idx) :
    broadcastInDim S16384x256 ![] bcast_S_S16384x256 (constant (F := Ideal) S_ .f32 0x00000000#32) i = 0 :=
  Ideal.ofBits_zero_f32

/-- The bias row of the hidden layer, broadcast over the rows. -/
theorem b1_apply (a12 : FVec Ideal S256 .f32) (p : Fin 16384) (j : Fin 256) :
    broadcastInDim S16384x256 ![0, 1] bcast_S1x256_S16384x256_0_1 (broadcastInDim S1x256 ![1] bcast_S256_S1x256_1 a12) (ix2 p j) = a12 (ix1 j) := by
  refine (broadcastInDim_apply _ _ _ (ix2 p j) (ix2 (0 : Fin 1) j) fun a => ?_).trans
    (broadcastInDim_apply _ _ a12 (ix2 (0 : Fin 1) j) (ix1 j) fun a => ?_)
  · match a with
    | ⟨0, _⟩ => rfl
    | ⟨1, _⟩ => rfl
  · match a with
    | ⟨0, _⟩ => rfl

/-- The bias of the last layer, broadcast over the rows. -/
theorem b2_apply (a14 : FVec Ideal S1 .f32) (p : Fin 16384) (q : Fin 1) :
    broadcastInDim S16384x1 ![0, 1] bcast_S1x1_S16384x1_0_1 (broadcastInDim S1x1 ![1] bcast_S1_S1x1_1 a14) (ix2 p q) = a14 (ix1 0) := by
  refine (broadcastInDim_apply _ _ _ (ix2 p q) (ix2 (0 : Fin 1) (0 : Fin 1)) fun a => ?_).trans
    (broadcastInDim_apply _ _ a14 (ix2 (0 : Fin 1) (0 : Fin 1)) (ix1 0) fun a => ?_)
  · match a with
    | ⟨0, _⟩ => rfl
    | ⟨1, _⟩ => rfl
  · match a with
    | ⟨0, _⟩ => rfl

/-- A sum over `4051 = 128 + 3539 + 384` indices, split at 128 and at 3667. -/
theorem sum_4051 {β : Type} [AddCommMonoid β] (f : Fin 4051 → β) :
    ∑ k, f k = ((∑ k : Fin 128, f ⟨k.val, by omega⟩) + (∑ k : Fin 3539, f ⟨128 + k.val, by omega⟩))
      + ∑ k : Fin 384, f ⟨3667 + k.val, by omega⟩ :=
  sum_split3 128 3539 384 f

section Pieces
variable (g : FVec Ideal S16384x128 .f32) (a1 : FVec Ideal S16384x3539 .f32) (a2 : FVec Ideal S16384x384 .f32)

/-- The three arrays joined along the columns. -/
abbrev cat3 : FVec Ideal S16384x4051 .f32 :=
  concatenate S16384x4051 1 [⟨S16384x128, g⟩, ⟨S16384x3539, a1⟩, ⟨S16384x384, a2⟩] concatenates_S16384x128_S16384x3539_S16384x384_S16384x4051_d1

/-- Columns `0 … 127` of the joined array are the first piece. -/
theorem cat3_g (p : Fin 16384) (k : Fin 128) : cat3 g a1 a2 (ix2 p (⟨k.val, by omega⟩ : Fin 4051)) = g (ix2 p k) := by
  refine concatenate_apply_piece (t := S16384x4051) (1 : Fin 2) [⟨S16384x128, g⟩, ⟨S16384x3539, a1⟩, ⟨S16384x384, a2⟩] _ _ 0 (by show (0 : Nat) < 3; omega) S16384x128 g rfl rfl 0 rfl (ix2 p k) (fun b hb => ?_) ?_
  · match b with
    | ⟨0, _⟩ => rfl
    | ⟨1, _⟩ => exact absurd rfl hb
  · show 0 + k.val = k.val; omega

/-- Columns `128 … 3666` are the second piece. -/
theorem cat3_c (p : Fin 16384) (k : Fin 3539) : cat3 g a1 a2 (ix2 p (⟨128 + k.val, by omega⟩ : Fin 4051)) = a1 (ix2 p k) := by
  refine concatenate_apply_piece (t := S16384x4051) (1 : Fin 2) [⟨S16384x128, g⟩, ⟨S16384x3539, a1⟩, ⟨S16384x384, a2⟩] _ _ 1 (by show (1 : Nat) < 3; omega) S16384x3539 a1 rfl rfl 128 rfl (ix2 p k) (fun b hb => ?_) ?_
  · match b with
    | ⟨0, _⟩ => rfl
    | ⟨1, _⟩ => exact absurd rfl hb
  · show 128 + k.val = 128 + k.val; rfl

/-- Columns `3667 … 4050` are the third piece. -/
theorem cat3_p (p : Fin 16384) (k : Fin 384) : cat3 g a1 a2 (ix2 p (⟨3667 + k.val, by omega⟩ : Fin 4051)) = a2 (ix2 p k) := by
  refine concatenate_apply_piece (t := S16384x4051) (1 : Fin 2) [⟨S16384x128, g⟩, ⟨S16384x3539, a1⟩, ⟨S16384x384, a2⟩] _ _ 2 (by show (2 : Nat) < 3; omega) S16384x384 a2 rfl rfl 3667 rfl (ix2 p k) (fun b hb => ?_) ?_
  · match b with
    | ⟨0, _⟩ => rfl
    | ⟨1, _⟩ => exact absurd rfl hb
  · show 3667 + k.val = 3667 + k.val; rfl

end Pieces

section Rows
variable (a11 : FVec Ideal S4051x256 .f32)

/-- Rows `0 … 127` of the weight array. -/
theorem rows_g (k : Fin 128) (j : Fin 256) : wfRowsG (F := Ideal) a11 (ix2 k j) = a11 (ix2 (⟨k.val, by omega⟩ : Fin 4051) j) :=
  slice2_axis0_apply 0 a11 _ k j _ (by show k.val = 0 + k.val; omega)

/-- Rows `128 … 3666`. -/
theorem rows_c (k : Fin 3539) (j : Fin 256) : wfRowsC (F := Ideal) a11 (ix2 k j) = a11 (ix2 (⟨128 + k.val, by omega⟩ : Fin 4051) j) :=
  slice2_axis0_apply 128 a11 _ k j _ rfl

/-- Rows `3667 … 4050`. -/
theorem rows_p (k : Fin 384) (j : Fin 256) : wfRowsP (F := Ideal) a11 (ix2 k j) = a11 (ix2 (⟨3667 + k.val, by omega⟩ : Fin 4051) j) :=
  slice2_axis0_apply 3667 a11 _ k j _ rfl

end Rows

/-- The reference's one product over the joined `4051` columns, at an entry: the three products over the three ranges
    of columns, added in the kernel's order. -/
theorem dot_cat3 (g : FVec Ideal S16384x128 .f32) (a1 : FVec Ideal S16384x3539 .f32) (a2 : FVec Ideal S16384x384 .f32)
    (a11 : FVec Ideal S4051x256 .f32) (p : Fin 16384) (j : Fin 256) :
    Host.dotGeneral dot_S16384x4051_S4051x256_S16384x256_1_0_0_1_n_n none (cat3 g a1 a2) a11 (ix2 p j)
      = ((∑ k : Fin 128, g (ix2 p k) * wfRowsG (F := Ideal) a11 (ix2 k j)) + (∑ k : Fin 3539, a1 (ix2 p k) * wfRowsC (F := Ideal) a11 (ix2 k j)))
        + ∑ k : Fin 384, a2 (ix2 p k) * wfRowsP (F := Ideal) a11 (ix2 k j) := by
  refine (Cert.LibPlainDot.dotGeneral_plain (M := 16384) (K := 4051) (N := 256) none .single (cat3 g a1 a2) a11 p j).trans ?_
  refine (sum_4051 _).trans ?_
  refine congrArg₂ (· + ·) (congrArg₂ (· + ·) (Finset.sum_congr rfl fun k _ => ?_) (Finset.sum_congr rfl fun k _ => ?_))
    (Finset.sum_congr rfl fun k _ => ?_)
  · exact congrArg₂ (fun a b : Ideal .f32 => a * b) (cat3_g g a1 a2 p k) (rows_g a11 k j).symm
  · exact congrArg₂ (fun a b : Ideal .f32 => a * b) (cat3_c g a1 a2 p k) (rows_c a11 k j).symm
  · exact congrArg₂ (fun a b : Ideal .f32 => a * b) (cat3_p g a1 a2 p k) (rows_p a11 k j).symm

/-- The reference's hidden layer at an entry is the kernel's. -/
theorem hidden_eq (g : FVec Ideal S16384x128 .f32) (a1 : FVec Ideal S16384x3539 .f32) (a2 : FVec Ideal S16384x384 .f32)
    (a11 : FVec Ideal S4051x256 .f32) (a12 : FVec Ideal S256 .f32) (p : Fin 16384) (j : Fin 256) :
    (maximumf (addf (Host.dotGeneral dot_S16384x4051_S4051x256_S16384x256_1_0_0_1_n_n none (cat3 g a1 a2) a11)
        (broadcastInDim S16384x256 ![0, 1] bcast_S1x256_S16384x256_0_1 (broadcastInDim S1x256 ![1] bcast_S256_S1x256_1 a12)))
        (broadcastInDim S16384x256 ![] bcast_S_S16384x256 (constant S_ .f32 0x00000000#32)) : FVec Ideal S16384x256 .f32) (ix2 p j)
      = headHidden g a1 a2 (wfRowsG (F := Ideal) a11) (wfRowsC (F := Ideal) a11) (wfRowsP (F := Ideal) a11) a12 (ix2 p j) := by
  show max ((Host.dotGeneral dot_S16384x4051_S4051x256_S16384x256_1_0_0_1_n_n none (cat3 g a1 a2) a11 (ix2 p j) : Ideal .f32)
      + broadcastInDim S16384x256 ![0, 1] bcast_S1x256_S16384x256_0_1 (broadcastInDim S1x256 ![1] bcast_S256_S1x256_1 a12) (ix2 p j))
    (broadcastInDim S16384x256 ![] bcast_S_S16384x256 (constant (F := Ideal) S_ .f32 0x00000000#32) (ix2 p j)) = _
  rw [zero_apply, b1_apply, dot_cat3, headHidden_apply]

/-- **The reference's head is the head**, with the three row ranges of its one weight array for the three weight arrays. -/
theorem headR_eq (g : FVec Ideal S16384x128 .f32) (a1 : FVec Ideal S16384x3539 .f32) (a2 : FVec Ideal S16384x384 .f32)
    (a11 : FVec Ideal S4051x256 .f32) (a12 : FVec Ideal S256 .f32) (a13 : FVec Ideal S256x1 .f32) (a14 : FVec Ideal S1 .f32) :
    Cert.Chains.headR (F := Ideal) g a1 a2 a11 a12 a13 a14
      = Cert.Spec.headOut g a1 a2 (Cert.Chains.wfRowsG (F := Ideal) a11) (Cert.Chains.wfRowsC (F := Ideal) a11) (Cert.Chains.wfRowsP (F := Ideal) a11) a12 a13 a14 := by
  funext i
  obtain ⟨p, q, rfl⟩ : ∃ (p : Fin 16384) (q : Fin 1), i = ix2 p q := ⟨i 0, i 1, eq_ix2 i⟩
  unfold Cert.Chains.headR
  show Ideal.div (broadcastInDim S16384x1 ![] bcast_S_S16384x1 (constant (F := Ideal) S_ .f32 0x3F800000#32) (ix2 p q))
      (broadcastInDim S16384x1 ![] bcast_S_S16384x1 (constant (F := Ideal) S_ .f32 0x3F800000#32) (ix2 p q)
        + Ideal.exp (-((Host.dotGeneral dot_S16384x256_S256x1_S16384x1_1_0_0_1_n_n none _ a13 (ix2 p q) : Ideal .f32)
          + broadcastInDim S16384x1 ![0, 1] bcast_S1x1_S16384x1_0_1 (broadcastInDim S1x1 ![1] bcast_S1_S1x1_1 a14) (ix2 p q))))
    = Ideal.div (Ideal.ofBits .f32 0x3F800000#32) (Ideal.ofBits .f32 0x3F800000#32
        + Ideal.exp (-(matProd (headHidden g a1 a2 (wfRowsG (F := Ideal) a11) (wfRowsC (F := Ideal) a11) (wfRowsP (F := Ideal) a11) a12) a13 (ix2 p q) + a14 (ix1 0))))
  rw [one_apply, b2_apply]
  refine congrArg (fun x : EReal => Ideal.div (Ideal.ofBits .f32 0x3F800000#32) (Ideal.ofBits .f32 0x3F800000#32 + Ideal.exp (-(x + a14 (ix1 0))))) ?_
  refine (Cert.LibPlainDot.dotGeneral_plain (M := 16384) (K := 256) (N := 1) none .single _ a13 p q).trans ?_
  refine Finset.sum_congr rfl fun j _ => ?_
  exact congrArg (fun x : EReal => x * (a13 (ix2 j q) : Ideal .f32)) (hidden_eq g a1 a2 a11 a12 p j)

end Cert.HeadLaw

end
-- ==== Proof.Model.lean ====
/-
  The network as one function of its fifteen argument arrays, at the ideal values: two graph-convolution layers
  (dense product, normalised aggregation over the edges with self-loops, bias, cut at zero), the mean pool per graph,
  the biased product into the graph embedding, and the head over the embedding and the two feature arrays. Both
  programs' results are shown to be this function of their arguments.
-/
import proofs.«146187_j45509473468604_1_alg».proof.Proof.Chains
import proofs.«146187_j45509473468604_1_alg».proof.Proof.MatProd
import proofs.«146187_j45509473468604_1_alg».proof.Proof.Bias
import proofs.«146187_j45509473468604_1_alg».proof.Proof.Head

set_option maxRecDepth 16384

noncomputable section

open Idealize.ShloMosaic Idealize.ShloMosaic.TcCoe

namespace Cert.Spec

open Cert.KernelIdeal Cert.Chains

/-- The whole network: the result array `[16384, 1]` of the fifteen argument arrays. -/
def network (a0 : (⟨S524288x1, .f32⟩ : BufTy).Contents (Elt Ideal)) (a1 : (⟨S16384x3539, .f32⟩ : BufTy).Contents (Elt Ideal)) (a2 : (⟨S16384x384, .f32⟩ : BufTy).Contents (Elt Ideal))
    (a3 : (⟨S2x2097152, .i32⟩ : BufTy).Contents (Elt Ideal)) (a4 : (⟨S524288, .i32⟩ : BufTy).Contents (Elt Ideal)) (a5 : (⟨S1x64, .f32⟩ : BufTy).Contents (Elt Ideal)) (a6 : (⟨S64, .f32⟩ : BufTy).Contents (Elt Ideal))
    (a7 : (⟨S64x64, .f32⟩ : BufTy).Contents (Elt Ideal)) (a8 : (⟨S64, .f32⟩ : BufTy).Contents (Elt Ideal)) (a9 : (⟨S64x128, .f32⟩ : BufTy).Contents (Elt Ideal)) (a10 : (⟨S128, .f32⟩ : BufTy).Contents (Elt Ideal))
    (a11 : (⟨S4051x256, .f32⟩ : BufTy).Contents (Elt Ideal)) (a12 : (⟨S256, .f32⟩ : BufTy).Contents (Elt Ideal)) (a13 : (⟨S256x1, .f32⟩ : BufTy).Contents (Elt Ideal)) (a14 : (⟨S1, .f32⟩ : BufTy).Contents (Elt Ideal)) :
    FVec Ideal ⟨2, ![16384, 1]⟩ .f32 :=
  headOut
    (biasedProd (M := 16384) (K := 64) (N := 128)
      (meanPoolK (F := Ideal)
        (gcnLayerK (F := Ideal)
          (matProd (M := 524288) (K := 64) (N := 64)
            (gcnLayerK (F := Ideal) (matProd (M := 524288) (K := 1) (N := 64) a0 a5)
              (edgeNormK (F := Ideal) (srcWordsK (F := Ideal) a3) (dstWordsK (F := Ideal) a3)) (srcWordsK (F := Ideal) a3) (dstWordsK (F := Ideal) a3) a6)
            a7)
          (edgeNormK (F := Ideal) (srcWordsK (F := Ideal) a3) (dstWordsK (F := Ideal) a3)) (srcWordsK (F := Ideal) a3) (dstWordsK (F := Ideal) a3) a8)
        a4)
      a9 a10)
    a1 a2 (wfRowsG (F := Ideal) a11) (wfRowsC (F := Ideal) a11) (wfRowsP (F := Ideal) a11) a12 a13 a14

end Cert.Spec

end
-- ==== Proof.KValue.lean ====
/-
  The contents of the kernel's result array at the end of its run, as one function of the argument arrays. The run's
  segment boundaries assign every buffer its contents by a fold over the launch memory: a stretch of host operations
  rewrites the buffers it writes, a pipelined product leaves its output array at what its write-backs compose to. Read
  back from the result: the head's output of the graph embedding and the feature arrays; the embedding is the biased
  product of the pooled node rows; the pooled rows are the mean pool of the second convolution layer, which is the layer
  chain over the second dense product, of the first layer, over the first dense product of the node features. The edge
  words and the normalisation are computed once, before the first product, and no later stretch or product writes them.
-/
import proofs.«146187_j45509473468604_1_alg».proof.Proof.Gen.KernelIdeal.Frame
import proofs.«146187_j45509473468604_1_alg».proof.Proof.Chains
import proofs.«146187_j45509473468604_1_alg».proof.Proof.MatProd
import proofs.«146187_j45509473468604_1_alg».proof.Proof.Bias
import proofs.«146187_j45509473468604_1_alg».proof.Proof.Region0
import proofs.«146187_j45509473468604_1_alg».proof.Proof.Region1
import proofs.«146187_j45509473468604_1_alg».proof.Proof.Region2
import proofs.«146187_j45509473468604_1_alg».proof.Proof.Head
import proofs.«146187_j45509473468604_1_alg».proof.Proof.Model
import Idealize.ShloMosaic.Lib.StableHlo.Run

set_option maxRecDepth 16384

noncomputable section

namespace Cert.KernelIdeal.Boundary

open Cert.KernelIdeal Cert.KernelIdeal.Gen Cert.KernelIdeal.RegionValue Cert.Spec Cert.Chains
open Idealize.ShloMosaic Idealize.ShloMosaic.TcCoe Idealize.ShloMosaic.StableHlo Idealize.SL.Sem

/-! ## The stretches of host operations, over any float values and from any contents

Each stretch, run from contents `U`, leaves in the buffer named the chain function of the buffers it reads. -/

section Stretches

variable {F : FTy → Type} [FloatOps F] (U : Valuation τ sig (Elt F))

theorem stretch0_src : StableHlo.after hostOps0_2 (StableHlo.after hostOps0_1 (StableHlo.after hostOps0 U)) (Proc.devRef .tc main_v3)
    = srcWordsK (U (Proc.devRef .tc main_arg3)) := by
  dsimp only [hostOps0, hostOps0_1, hostOps0_2]; after_results_simp <;> rfl
theorem stretch0_dst : StableHlo.after hostOps0_2 (StableHlo.after hostOps0_1 (StableHlo.after hostOps0 U)) (Proc.devRef .tc main_v6)
    = dstWordsK (U (Proc.devRef .tc main_arg3)) := by
  dsimp only [hostOps0, hostOps0_1, hostOps0_2]; after_results_simp <;> rfl
theorem stretch0_nrm : StableHlo.after hostOps0_2 (StableHlo.after hostOps0_1 (StableHlo.after hostOps0 U)) (Proc.devRef .tc main_v29)
    = edgeNormK (srcWordsK (U (Proc.devRef .tc main_arg3))) (dstWordsK (U (Proc.devRef .tc main_arg3))) := by
  dsimp only [hostOps0, hostOps0_1, hostOps0_2]; after_results_simp <;> rfl
theorem stretch1_x1 : StableHlo.after hostOps1_1 (StableHlo.after hostOps1 U) (Proc.devRef .tc main_v47)
    = gcnLayerK (U (Proc.devRef .tc main_v30)) (U (Proc.devRef .tc main_v29)) (U (Proc.devRef .tc main_v3)) (U (Proc.devRef .tc main_v6)) (U (Proc.devRef .tc main_arg6)) := by
  dsimp only [hostOps1, hostOps1_1]; after_results_simp <;> rfl
theorem stretch2_pooled : StableHlo.after hostOps2_2 (StableHlo.after hostOps2_1 (StableHlo.after hostOps2 U)) (Proc.devRef .tc main_v77)
    = meanPoolK (gcnLayerK (U (Proc.devRef .tc main_v48)) (U (Proc.devRef .tc main_v29)) (U (Proc.devRef .tc main_v3)) (U (Proc.devRef .tc main_v6)) (U (Proc.devRef .tc main_arg8))) (U (Proc.devRef .tc main_arg4)) := by
  dsimp only [hostOps2, hostOps2_1, hostOps2_2]; after_results_simp <;> rfl
theorem stretch3_wg : StableHlo.after hostOps3 U (Proc.devRef .tc main_v79) = wfRowsG (U (Proc.devRef .tc main_arg11)) := by
  dsimp only [hostOps3]; after_results_simp <;> rfl
theorem stretch3_wc : StableHlo.after hostOps3 U (Proc.devRef .tc main_v80) = wfRowsC (U (Proc.devRef .tc main_arg11)) := by
  dsimp only [hostOps3]; after_results_simp <;> rfl
theorem stretch3_wp : StableHlo.after hostOps3 U (Proc.devRef .tc main_v81) = wfRowsP (U (Proc.devRef .tc main_arg11)) := by
  dsimp only [hostOps3]; after_results_simp <;> rfl

end Stretches

variable (m : (ℓ : Loc nD τ sig) → Buf (Elt Ideal) ℓ) (ρ : Dev nD → PrngReg)

/-- One step back through the boundaries for the buffer `b`: a product's exit keeps every buffer that is none of its
    arrays; a stretch of host operations keeps every buffer it does not write and computes the ones it writes. -/
macro "boundary " b:term : tactic => `(tactic| repeat (first
  | assumption
  | with_reducible rfl
  | rw [W13_of_ne _ _ _ $b (by decide)]
  | rw [W11_of_ne _ _ _ $b (by decide)]
  | rw [W7_of_ne _ _ _ $b (by decide)]
  | rw [W4_of_ne _ _ _ $b (by decide)]
  | (dsimp only [W1, W2, W3, W5, W6, W8, W9, W10, W12, hostOps0, hostOps0_1, hostOps0_2, hostOps1, hostOps1_1,
      hostOps2, hostOps2_1, hostOps2_2, hostOps3]; after_results_simp)
  | rfl))

/-! ## The argument arrays at the boundaries where they are read -/

theorem arg0_at3 (c : Dev nD) : W3 m ρ c (Proc.devRef .tc main_arg0) = (m ((c : Thread nD τ).loc main_arg0)) := by boundary main_arg0
theorem arg5_at3 (c : Dev nD) : W3 m ρ c (Proc.devRef .tc main_arg5) = (m ((c : Thread nD τ).loc main_arg5)) := by boundary main_arg5
theorem arg3_at0 (c : Dev nD) : W0 m ρ c (Proc.devRef .tc main_arg3) = (m ((c : Thread nD τ).loc main_arg3)) := rfl
theorem arg6_at4 (c : Dev nD) : W4 m ρ c (Proc.devRef .tc main_arg6) = (m ((c : Thread nD τ).loc main_arg6)) := by boundary main_arg6
theorem arg7_at6 (c : Dev nD) : W6 m ρ c (Proc.devRef .tc main_arg7) = (m ((c : Thread nD τ).loc main_arg7)) := by boundary main_arg7
theorem arg8_at7 (c : Dev nD) : W7 m ρ c (Proc.devRef .tc main_arg8) = (m ((c : Thread nD τ).loc main_arg8)) := by boundary main_arg8
theorem arg4_at7 (c : Dev nD) : W7 m ρ c (Proc.devRef .tc main_arg4) = (m ((c : Thread nD τ).loc main_arg4)) := by boundary main_arg4
theorem arg9_at10 (c : Dev nD) : W10 m ρ c (Proc.devRef .tc main_arg9) = (m ((c : Thread nD τ).loc main_arg9)) := by boundary main_arg9
theorem arg10_at10 (c : Dev nD) : W10 m ρ c (Proc.devRef .tc main_arg10) = (m ((c : Thread nD τ).loc main_arg10)) := by boundary main_arg10
theorem arg11_at11 (c : Dev nD) : W11 m ρ c (Proc.devRef .tc main_arg11) = (m ((c : Thread nD τ).loc main_arg11)) := by boundary main_arg11
theorem arg1_at12 (c : Dev nD) : W12 m ρ c (Proc.devRef .tc main_arg1) = (m ((c : Thread nD τ).loc main_arg1)) := by boundary main_arg1
theorem arg2_at12 (c : Dev nD) : W12 m ρ c (Proc.devRef .tc main_arg2) = (m ((c : Thread nD τ).loc main_arg2)) := by boundary main_arg2
theorem arg12_at12 (c : Dev nD) : W12 m ρ c (Proc.devRef .tc main_arg12) = (m ((c : Thread nD τ).loc main_arg12)) := by boundary main_arg12
theorem arg13_at12 (c : Dev nD) : W12 m ρ c (Proc.devRef .tc main_arg13) = (m ((c : Thread nD τ).loc main_arg13)) := by boundary main_arg13
theorem arg14_at12 (c : Dev nD) : W12 m ρ c (Proc.devRef .tc main_arg14) = (m ((c : Thread nD τ).loc main_arg14)) := by boundary main_arg14

/-! ## The edge words and the normalisation: computed before the first product, kept by everything after -/

theorem src_at3 (c : Dev nD) : W3 m ρ c (Proc.devRef .tc main_v3) = srcWordsK (m ((c : Thread nD τ).loc main_arg3)) := stretch0_src (F := Ideal) (W0 m ρ c)
theorem dst_at3 (c : Dev nD) : W3 m ρ c (Proc.devRef .tc main_v6) = dstWordsK (m ((c : Thread nD τ).loc main_arg3)) := stretch0_dst (F := Ideal) (W0 m ρ c)
theorem nrm_at3 (c : Dev nD) : W3 m ρ c (Proc.devRef .tc main_v29) = edgeNormK (srcWordsK (m ((c : Thread nD τ).loc main_arg3))) (dstWordsK (m ((c : Thread nD τ).loc main_arg3))) :=
  stretch0_nrm (F := Ideal) (W0 m ρ c)

theorem src_at4 (c : Dev nD) : W4 m ρ c (Proc.devRef .tc main_v3) = srcWordsK (m ((c : Thread nD τ).loc main_arg3)) := by
  have h := src_at3 m ρ c; boundary main_v3
theorem dst_at4 (c : Dev nD) : W4 m ρ c (Proc.devRef .tc main_v6) = dstWordsK (m ((c : Thread nD τ).loc main_arg3)) := by
  have h := dst_at3 m ρ c; boundary main_v6
theorem nrm_at4 (c : Dev nD) : W4 m ρ c (Proc.devRef .tc main_v29) = edgeNormK (srcWordsK (m ((c : Thread nD τ).loc main_arg3))) (dstWordsK (m ((c : Thread nD τ).loc main_arg3))) := by
  have h := nrm_at3 m ρ c; boundary main_v29
theorem src_at7 (c : Dev nD) : W7 m ρ c (Proc.devRef .tc main_v3) = srcWordsK (m ((c : Thread nD τ).loc main_arg3)) := by
  have h := src_at3 m ρ c; boundary main_v3
theorem dst_at7 (c : Dev nD) : W7 m ρ c (Proc.devRef .tc main_v6) = dstWordsK (m ((c : Thread nD τ).loc main_arg3)) := by
  have h := dst_at3 m ρ c; boundary main_v6
theorem nrm_at7 (c : Dev nD) : W7 m ρ c (Proc.devRef .tc main_v29) = edgeNormK (srcWordsK (m ((c : Thread nD τ).loc main_arg3))) (dstWordsK (m ((c : Thread nD τ).loc main_arg3))) := by
  have h := nrm_at3 m ρ c; boundary main_v29

/-! ## The first layer -/

/-- The first product's output array: the matrix product of the node features by `W1`. -/
theorem h1_at4 (c : Dev nD) : W4 m ρ c (Proc.devRef .tc main_v30) = matProd (M := 524288) (K := 1) (N := 64) (m ((c : Thread nD τ).loc main_arg0)) (m ((c : Thread nD τ).loc main_arg5)) := by
  refine (W4_arr m ρ c 2).trans ?_
  refine (final0 (V3 m ρ) c).trans ?_
  show matProd (M := 524288) (K := 1) (N := 64) (W3 m ρ c (Proc.devRef .tc main_arg0)) (W3 m ρ c (Proc.devRef .tc main_arg5)) = _
  rw [arg0_at3, arg5_at3]

/-- The node rows after the first layer: the layer chain over the first product. -/
theorem x1_at6 (c : Dev nD) : W6 m ρ c (Proc.devRef .tc main_v47) = gcnLayerK (matProd (M := 524288) (K := 1) (N := 64) (m ((c : Thread nD τ).loc main_arg0)) (m ((c : Thread nD τ).loc main_arg5))) (edgeNormK (srcWordsK (m ((c : Thread nD τ).loc main_arg3))) (dstWordsK (m ((c : Thread nD τ).loc main_arg3)))) (srcWordsK (m ((c : Thread nD τ).loc main_arg3))) (dstWordsK (m ((c : Thread nD τ).loc main_arg3))) (m ((c : Thread nD τ).loc main_arg6)) := by
  have e : W6 m ρ c (Proc.devRef .tc main_v47) = gcnLayerK (W4 m ρ c (Proc.devRef .tc main_v30)) (W4 m ρ c (Proc.devRef .tc main_v29)) (W4 m ρ c (Proc.devRef .tc main_v3)) (W4 m ρ c (Proc.devRef .tc main_v6)) (W4 m ρ c (Proc.devRef .tc main_arg6)) :=
    stretch1_x1 (F := Ideal) (W4 m ρ c)
  rw [e, h1_at4, nrm_at4, src_at4, dst_at4, arg6_at4]

/-! ## The second layer and the pool -/

theorem h2_at7 (c : Dev nD) : W7 m ρ c (Proc.devRef .tc main_v48) = matProd (M := 524288) (K := 64) (N := 64) (gcnLayerK (matProd (M := 524288) (K := 1) (N := 64) (m ((c : Thread nD τ).loc main_arg0)) (m ((c : Thread nD τ).loc main_arg5))) (edgeNormK (srcWordsK (m ((c : Thread nD τ).loc main_arg3))) (dstWordsK (m ((c : Thread nD τ).loc main_arg3)))) (srcWordsK (m ((c : Thread nD τ).loc main_arg3))) (dstWordsK (m ((c : Thread nD τ).loc main_arg3))) (m ((c : Thread nD τ).loc main_arg6))) (m ((c : Thread nD τ).loc main_arg7)) := by
  refine (W7_arr m ρ c 2).trans ?_
  refine (final1 (V6 m ρ) c).trans ?_
  show matProd (M := 524288) (K := 64) (N := 64) (W6 m ρ c (Proc.devRef .tc main_v47)) (W6 m ρ c (Proc.devRef .tc main_arg7)) = _
  rw [x1_at6, arg7_at6]

theorem pooled_at10 (c : Dev nD) : W10 m ρ c (Proc.devRef .tc main_v77) = meanPoolK (gcnLayerK (matProd (M := 524288) (K := 64) (N := 64) (gcnLayerK (matProd (M := 524288) (K := 1) (N := 64) (m ((c : Thread nD τ).loc main_arg0)) (m ((c : Thread nD τ).loc main_arg5))) (edgeNormK (srcWordsK (m ((c : Thread nD τ).loc main_arg3))) (dstWordsK (m ((c : Thread nD τ).loc main_arg3)))) (srcWordsK (m ((c : Thread nD τ).loc main_arg3))) (dstWordsK (m ((c : Thread nD τ).loc main_arg3))) (m ((c : Thread nD τ).loc main_arg6))) (m ((c : Thread nD τ).loc main_arg7))) (edgeNormK (srcWordsK (m ((c : Thread nD τ).loc main_arg3))) (dstWordsK (m ((c : Thread nD τ).loc main_arg3)))) (srcWordsK (m ((c : Thread nD τ).loc main_arg3))) (dstWordsK (m ((c : Thread nD τ).loc main_arg3))) (m ((c : Thread nD τ).loc main_arg8))) (m ((c : Thread nD τ).loc main_arg4)) := by
  have e : W10 m ρ c (Proc.devRef .tc main_v77) = meanPoolK (gcnLayerK (W7 m ρ c (Proc.devRef .tc main_v48)) (W7 m ρ c (Proc.devRef .tc main_v29)) (W7 m ρ c (Proc.devRef .tc main_v3)) (W7 m ρ c (Proc.devRef .tc main_v6)) (W7 m ρ c (Proc.devRef .tc main_arg8))) (W7 m ρ c (Proc.devRef .tc main_arg4)) :=
    stretch2_pooled (F := Ideal) (W7 m ρ c)
  rw [e, h2_at7, nrm_at7, src_at7, dst_at7, arg8_at7, arg4_at7]

/-! ## The graph embedding and the head's operands -/

theorem g_at11 (c : Dev nD) : W11 m ρ c (Proc.devRef .tc main_v78) = biasedProd (M := 16384) (K := 64) (N := 128) (meanPoolK (gcnLayerK (matProd (M := 524288) (K := 64) (N := 64) (gcnLayerK (matProd (M := 524288) (K := 1) (N := 64) (m ((c : Thread nD τ).loc main_arg0)) (m ((c : Thread nD τ).loc main_arg5))) (edgeNormK (srcWordsK (m ((c : Thread nD τ).loc main_arg3))) (dstWordsK (m ((c : Thread nD τ).loc main_arg3)))) (srcWordsK (m ((c : Thread nD τ).loc main_arg3))) (dstWordsK (m ((c : Thread nD τ).loc main_arg3))) (m ((c : Thread nD τ).loc main_arg6))) (m ((c : Thread nD τ).loc main_arg7))) (edgeNormK (srcWordsK (m ((c : Thread nD τ).loc main_arg3))) (dstWordsK (m ((c : Thread nD τ).loc main_arg3)))) (srcWordsK (m ((c : Thread nD τ).loc main_arg3))) (dstWordsK (m ((c : Thread nD τ).loc main_arg3))) (m ((c : Thread nD τ).loc main_arg8))) (m ((c : Thread nD τ).loc main_arg4))) (m ((c : Thread nD τ).loc main_arg9)) (m ((c : Thread nD τ).loc main_arg10)) := by
  refine (W11_arr m ρ c 3).trans ?_
  refine (final2 (V10 m ρ) c).trans ?_
  show biasedProd (M := 16384) (K := 64) (N := 128) (W10 m ρ c (Proc.devRef .tc main_v77)) (W10 m ρ c (Proc.devRef .tc main_arg9)) (W10 m ρ c (Proc.devRef .tc main_arg10)) = _
  rw [pooled_at10, arg9_at10, arg10_at10]

theorem g_at12 (c : Dev nD) : W12 m ρ c (Proc.devRef .tc main_v78) = biasedProd (M := 16384) (K := 64) (N := 128) (meanPoolK (gcnLayerK (matProd (M := 524288) (K := 64) (N := 64) (gcnLayerK (matProd (M := 524288) (K := 1) (N := 64) (m ((c : Thread nD τ).loc main_arg0)) (m ((c : Thread nD τ).loc main_arg5))) (edgeNormK (srcWordsK (m ((c : Thread nD τ).loc main_arg3))) (dstWordsK (m ((c : Thread nD τ).loc main_arg3)))) (srcWordsK (m ((c : Thread nD τ).loc main_arg3))) (dstWordsK (m ((c : Thread nD τ).loc main_arg3))) (m ((c : Thread nD τ).loc main_arg6))) (m ((c : Thread nD τ).loc main_arg7))) (edgeNormK (srcWordsK (m ((c : Thread nD τ).loc main_arg3))) (dstWordsK (m ((c : Thread nD τ).loc main_arg3)))) (srcWordsK (m ((c : Thread nD τ).loc main_arg3))) (dstWordsK (m ((c : Thread nD τ).loc main_arg3))) (m ((c : Thread nD τ).loc main_arg8))) (m ((c : Thread nD τ).loc main_arg4))) (m ((c : Thread nD τ).loc main_arg9)) (m ((c : Thread nD τ).loc main_arg10)) := by
  have h := g_at11 m ρ c; boundary main_v78

theorem wg_at12 (c : Dev nD) : W12 m ρ c (Proc.devRef .tc main_v79) = wfRowsG (m ((c : Thread nD τ).loc main_arg11)) := by
  have e : W12 m ρ c (Proc.devRef .tc main_v79) = wfRowsG (W11 m ρ c (Proc.devRef .tc main_arg11)) := stretch3_wg (F := Ideal) (W11 m ρ c)
  rw [e, arg11_at11]
theorem wc_at12 (c : Dev nD) : W12 m ρ c (Proc.devRef .tc main_v80) = wfRowsC (m ((c : Thread nD τ).loc main_arg11)) := by
  have e : W12 m ρ c (Proc.devRef .tc main_v80) = wfRowsC (W11 m ρ c (Proc.devRef .tc main_arg11)) := stretch3_wc (F := Ideal) (W11 m ρ c)
  rw [e, arg11_at11]
theorem wp_at12 (c : Dev nD) : W12 m ρ c (Proc.devRef .tc main_v81) = wfRowsP (m ((c : Thread nD τ).loc main_arg11)) := by
  have e : W12 m ρ c (Proc.devRef .tc main_v81) = wfRowsP (W11 m ρ c (Proc.devRef .tc main_arg11)) := stretch3_wp (F := Ideal) (W11 m ρ c)
  rw [e, arg11_at11]

/-! ## The result -/

/-- The result array at the end of the run: the network of the argument arrays as launched. -/
theorem result_value (c : Dev nD) :
    W13 m ρ c (Proc.devRef .tc main_v82) = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W13_arr m ρ c 9).trans ?_
  refine (final3 (V12 m ρ) c).trans ?_
  show headOut (W12 m ρ c (Proc.devRef .tc main_v78)) (W12 m ρ c (Proc.devRef .tc main_arg1)) (W12 m ρ c (Proc.devRef .tc main_arg2)) (W12 m ρ c (Proc.devRef .tc main_v79)) (W12 m ρ c (Proc.devRef .tc main_v80)) (W12 m ρ c (Proc.devRef .tc main_v81)) (W12 m ρ c (Proc.devRef .tc main_arg12)) (W12 m ρ c (Proc.devRef .tc main_arg13)) (W12 m ρ c (Proc.devRef .tc main_arg14)) = _
  rw [g_at12, arg1_at12, arg2_at12, wg_at12, wc_at12, wp_at12, arg12_at12, arg13_at12, arg14_at12]
  rfl

end Cert.KernelIdeal.Boundary

end
-- ==== Proof.RefValue.lean ====
/-
  The reference's result as the same composition the kernel's result array holds: its run's composed term is the
  shared host chains around three `dot_general`s and the head chain; each `dot_general` is the matrix product of its
  operands, the bias rows over the last product are the biased product, and the head chain is the head's output of the
  graph embedding, the feature arrays and the three row blocks of the first dense layer's weights.
-/
import proofs.«146187_j45509473468604_1_alg».proof.Proof.RefRun
import proofs.«146187_j45509473468604_1_alg».proof.Proof.Chains
import proofs.«146187_j45509473468604_1_alg».proof.Proof.MatProd
import proofs.«146187_j45509473468604_1_alg».proof.Proof.Bias
import proofs.«146187_j45509473468604_1_alg».proof.Proof.Head
import proofs.«146187_j45509473468604_1_alg».proof.Proof.Model

set_option maxRecDepth 16384

noncomputable section

namespace Cert.ReferenceIdeal.RefValue

open Cert.ReferenceIdeal Cert.ReferenceIdeal.Gen Cert.ReferenceIdeal.ValueP Cert.Spec Cert.Chains
open Idealize.ShloMosaic Idealize.ShloMosaic.TcCoe Idealize.SL.Sem

/-- The host's `dot_general`s of the reference are matrix products. -/
theorem dot30_eq (x : FVec Ideal S524288x1 .f32) (w : FVec Ideal S1x64 .f32) :
    Host.dotGeneral (F := Ideal) dot_S524288x1_S1x64_S524288x64_1_0_0_1_n_n none x w = matProd (M := 524288) (K := 1) (N := 64) x w :=
  dotGeneral_plain_eq (M := 524288) (K := 1) (N := 64) none .single x w
theorem dot48_eq (x : FVec Ideal S524288x64 .f32) (w : FVec Ideal S64x64 .f32) :
    Host.dotGeneral (F := Ideal) dot_S524288x64_S64x64_S524288x64_1_0_0_1_n_n none x w = matProd (M := 524288) (K := 64) (N := 64) x w :=
  dotGeneral_plain_eq (M := 524288) (K := 64) (N := 64) none .single x w
theorem dot78_eq (x : FVec Ideal S16384x64 .f32) (w : FVec Ideal S64x128 .f32) :
    Host.dotGeneral (F := Ideal) dot_S16384x64_S64x128_S16384x128_1_0_0_1_n_n none x w = matProd (M := 16384) (K := 64) (N := 128) x w :=
  dotGeneral_plain_eq (M := 16384) (K := 64) (N := 128) none .single x w

section Fold

variable {F : FTy → Type} [FloatOps F] (m : (ℓ : Loc nD τ sig) → Buf (Elt F) ℓ)

/-- The run's composed term, folded into the chains (over any float values: the two sides are one term once the chain
    functions are unfolded). -/
theorem res_chains (c : Dev nD) :
    res_main_v97 m c
      = headR (biasRowsR (Host.dotGeneral dot_S16384x64_S64x128_S16384x128_1_0_0_1_n_n none
          (meanPoolR (gcnLayerR (Host.dotGeneral dot_S524288x64_S64x64_S524288x64_1_0_0_1_n_n none
              (gcnLayerR (Host.dotGeneral dot_S524288x1_S1x64_S524288x64_1_0_0_1_n_n none (m ((c.tc : Thread nD τ).loc main_arg0)) (m ((c.tc : Thread nD τ).loc main_arg5)))
                (edgeNormR (srcWordsR (m ((c.tc : Thread nD τ).loc main_arg3))) (dstWordsR (m ((c.tc : Thread nD τ).loc main_arg3)))) (srcWordsR (m ((c.tc : Thread nD τ).loc main_arg3))) (dstWordsR (m ((c.tc : Thread nD τ).loc main_arg3))) (m ((c.tc : Thread nD τ).loc main_arg6)))
              (m ((c.tc : Thread nD τ).loc main_arg7)))
            (edgeNormR (srcWordsR (m ((c.tc : Thread nD τ).loc main_arg3))) (dstWordsR (m ((c.tc : Thread nD τ).loc main_arg3)))) (srcWordsR (m ((c.tc : Thread nD τ).loc main_arg3))) (dstWordsR (m ((c.tc : Thread nD τ).loc main_arg3))) (m ((c.tc : Thread nD τ).loc main_arg8)))
          (m ((c.tc : Thread nD τ).loc main_arg4))) (m ((c.tc : Thread nD τ).loc main_arg9))) (m ((c.tc : Thread nD τ).loc main_arg10)))
        (m ((c.tc : Thread nD τ).loc main_arg1)) (m ((c.tc : Thread nD τ).loc main_arg2)) (m ((c.tc : Thread nD τ).loc main_arg11)) (m ((c.tc : Thread nD τ).loc main_arg12)) (m ((c.tc : Thread nD τ).loc main_arg13)) (m ((c.tc : Thread nD τ).loc main_arg14)) := by
  unfold res_main_v97
  rfl

end Fold

variable (m : (ℓ : Loc nD τ sig) → Buf (Elt Ideal) ℓ)

/-- The reference's result: the network of its argument arrays. -/
theorem res_value (c : Dev nD) :
    res_main_v97 (F := Ideal) m c = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  rw [res_chains, dot30_eq, dot48_eq, dot78_eq, biasRows_matProd, Cert.HeadLaw.headR_eq]
  -- the reference's spelling of each shared chain is the kernel's
  simp only [← srcWords_eq, ← dstWords_eq, ← edgeNorm_eq, ← gcnLayer_eq, ← meanPool_eq]
  rfl

end Cert.ReferenceIdeal.RefValue

end
-- ==== Proof.lean ====
/-
  The certificate of the interaction predictor: two graph-convolution layers over a graph with self-loops, a mean
  pool per graph, a dense embedding, and a two-layer head with a logistic output. The kernel routes its dense products
  through four pipelined calls — `node_x · W1` and `x1 · W2` in row blocks of 8192, `pooled · Wg + bg` in two row blocks,
  and the head in row blocks of 512, where the product with the `4051 × 256` weights is the sum of three products with
  its row blocks `0 … 127`, `128 … 3666`, `3667 … 4050` — and leaves the irregular gathers and segment sums to the same
  host operations, in the same order, as the reference.

  At the ideal values both programs compute one function of the fifteen argument arrays (`Cert.Spec.network`):
  * a pipelined product's output array is the matrix product of the whole arrays, because its blocks tile the output
    and an entry of a product depends on its own row of the left operand only (Region0 … Region2, Head);
  * the reference's `dot_general`s are the same matrix products (MatProd), its bias rows the biased product (Bias);
  * the head's contraction over the 4051 joined columns is the sum of the three contractions over the joined pieces —
    a sum over `128 + 3539 + 384` indices split in three, which needs associativity and commutativity of the sum only —
    and `0 - x` is `-x` (Head);
  * the host stretches between the products are the same operations on both sides, carried as functions (Chains), read
    off the kernel's segment boundaries (KValue) and off the reference's run (RefValue).
  No step distributes a product over a sum or cancels, so no entry needs to be finite: the precondition is not used.
  The three frames are the programs' runs with the result dropped; the idealization rewrote no operation.
-/
import proofs.«146187_j45509473468604_1_alg».proof.Defs
import proofs.«146187_j45509473468604_1_alg».proof.Proof.Gen.Kernel
import proofs.«146187_j45509473468604_1_alg».proof.Proof.Gen.Kernel.Skeleton
import proofs.«146187_j45509473468604_1_alg».proof.Proof.Gen.Kernel.Launch
import proofs.«146187_j45509473468604_1_alg».proof.Proof.Gen.Kernel.Points
import proofs.«146187_j45509473468604_1_alg».proof.Proof.Gen.Kernel.Frame
import proofs.«146187_j45509473468604_1_alg».proof.Proof.Gen.KernelIdeal
import proofs.«146187_j45509473468604_1_alg».proof.Proof.Gen.KernelIdeal.Skeleton
import proofs.«146187_j45509473468604_1_alg».proof.Proof.Gen.KernelIdeal.Launch
import proofs.«146187_j45509473468604_1_alg».proof.Proof.Gen.KernelIdeal.Points
import proofs.«146187_j45509473468604_1_alg».proof.Proof.Gen.KernelIdeal.Frame
import proofs.«146187_j45509473468604_1_alg».proof.Proof.Gen.ReferenceIdeal
import proofs.«146187_j45509473468604_1_alg».proof.Proof.Gen.Pre_finite_inputs
import proofs.«146187_j45509473468604_1_alg».proof.Proof.KRun
import proofs.«146187_j45509473468604_1_alg».proof.Proof.KValue
import proofs.«146187_j45509473468604_1_alg».proof.Proof.RefRun
import proofs.«146187_j45509473468604_1_alg».proof.Proof.RefValue
import Idealize.ShloMosaic.Adequacy
import Idealize.ShloMosaic.Init

noncomputable section

namespace Cert.Proof

open Idealize.ShloMosaic Idealize.SL.Sem

/-- The kernel as printed runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the arguments both idealized programs run and end with the same result: the network of
    the argument arrays. -/
theorem algebraic : Cert.algebraic_KernelIdeal_ReferenceIdeal := by
  intro m ρ m' ρ' _ hagree
  refine ⟨fun c => Cert.KernelIdeal.Gen.W13 (F := Ideal) m ρ c (Proc.devRef .tc Cert.KernelIdeal.main_v82),
    Cert.KernelIdeal.RunValue.run_named (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10, h11, h12, h13, h14⟩ := hagree c
  show Cert.ReferenceIdeal.ValueP.res_main_v97 (F := Ideal) m' c
    = Cert.KernelIdeal.Gen.W13 (F := Ideal) m ρ c (Proc.devRef .tc Cert.KernelIdeal.main_v82)
  rw [Cert.ReferenceIdeal.RefValue.res_value, Cert.KernelIdeal.Boundary.result_value,
    h0, h1, h2, h3, h4, h5, h6, h7, h8, h9, h10, h11, h12, h13, h14]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
